-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64x128 .f32) (main_arg10 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S64x128 .f32) (main_arg9 : FVec F S64x128 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S64x128 .f32) (main_arg9 : FVec F S64x128 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 80
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x64, .f32⟩
  | .hbm, ⟨33, _⟩ => ⟨S128x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S1x64, .f32⟩
  | .hbm, ⟨79, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S5000x128, .f32⟩
  | .local _ .vmem, ⟨22, _⟩ => ⟨S5000x128, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S5000x128, .f32⟩
  | .local _ .vmem, ⟨30, _⟩ => ⟨S5000x128, .f32⟩
  | .local _ .vmem, ⟨31, _⟩ => ⟨S128x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  transposes_S64x128_S128x64_1_0 : S64x128.Transposes [1, 0] S128x64
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v42_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S128x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  THE KERNEL PROGRAM'S RUN, WITH ITS RESULT NAMED.

  The program is three kernel regions among stretches of host operations. Every weakly fair execution from any memory
  terminates without a fault; the buffers then hold the contents obtained by folding the program over the launch
  memory: each host stretch applies its operations, each region replaces its output arrays by what its write-backs
  leave. Here that final state is read at the RESULT buffer as well as at the arguments: the result holds the last
  fold's contents at its reference, and the argument arrays are as launched.
-/
import proofs.«131813_j86199993631208_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer then holds the last
    fold's contents and every argument array is as launched. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Whole

end
-- ==== Proof.LibSageLayer.lean ====
/-
  One mean-aggregation graph-convolution layer, and the final affine read-out, as functions of whole arrays
  over the extended reals.

  For node features h (M nodes, K channels), the neighbour sums a (M x K) and a per-node scale, a layer's output at
  node p and channel n is
      max( sum_k (a(p,k) scaled) * wl(k,n)  +  b(n)  +  sum_k h(p,k) * wr(k,n) , 0 ).
  Two arrangements of "scaled" occur: a(p,k) times a precomputed reciprocal column s(p) (`combine`, the bias as a
  1 x N row), and a(p,k) divided by the degree d(p) (`combineDiv`, the bias as a length-N vector). When s(p) is
  1 / d(p) and d(p) is not zero the two agree, because x * (1 / d) = x / d on the extended reals for every x
  (no finiteness needed: both sides are x times the inverse of d). The read-out is x(p,.) . w(.,n) + b(n).

  An output row depends only on the same row of a, of the scale and of h (`combine_rows`, `affine_rows`): this is
  what lets a computation done block of rows by block of rows be read as one whole-array function.
-/
import Idealize.ShloMosaic.Lib.ValueIdx
import Idealize.ShloMosaic.PureOps.Ideal

noncomputable section

open scoped BigOperators

namespace Cert.Sage

open Idealize.ShloMosaic Idealize.ShloMosaic.ValueIdx

/-- An M x N matrix of extended reals, indexed as the arrays of the programs are. -/
abbrev Mat (M N : ℕ) : Type := (⟨2, ![M, N]⟩ : Shape).Idx → EReal
/-- A length-N vector of extended reals. -/
abbrev Vc (N : ℕ) : Type := (⟨1, ![N]⟩ : Shape).Idx → EReal

/-- The matrix whose entry (p, n) is `g p n`. -/
def ofEntries {M N : ℕ} (g : Fin M → Fin N → EReal) : Mat M N :=
  fun i => g ⟨(i 0).val, idx2_lt0 i⟩ ⟨(i 1).val, idx2_lt1 i⟩

theorem ofEntries_apply {M N : ℕ} (g : Fin M → Fin N → EReal) (p : Fin M) (n : Fin N) :
    ofEntries g (ix2 p n) = g p n := rfl

/-- A layer with the neighbour sums multiplied by a reciprocal column `s` and the bias given as a 1 x N row. -/
def combine {M K N : ℕ} (a : Mat M K) (s : Mat M 1) (h : Mat M K) (wl : Mat K N) (b : Mat 1 N) (wr : Mat K N) :
    Mat M N :=
  ofEntries fun p n =>
    max (((∑ k : Fin K, (a (ix2 p k) * s (ix2 p (0 : Fin 1))) * wl (ix2 k n)) + b (ix2 (0 : Fin 1) n))
      + ∑ k : Fin K, h (ix2 p k) * wr (ix2 k n)) 0

/-- A layer with the neighbour sums divided by the degree vector `d` and the bias given as a length-N vector. -/
def combineDiv {M K N : ℕ} (a : Mat M K) (d : Vc M) (h : Mat M K) (wl : Mat K N) (b : Vc N) (wr : Mat K N) :
    Mat M N :=
  ofEntries fun p n =>
    max (((∑ k : Fin K, Ideal.div (a (ix2 p k)) (d (ix1 p)) * wl (ix2 k n)) + b (ix1 n))
      + ∑ k : Fin K, h (ix2 p k) * wr (ix2 k n)) 0

/-- The read-out x . w + b with the bias given as a 1 x N row. -/
def affine {M J N : ℕ} (x : Mat M J) (w : Mat J N) (b : Mat 1 N) : Mat M N :=
  ofEntries fun p n => (∑ j : Fin J, x (ix2 p j) * w (ix2 j n)) + b (ix2 (0 : Fin 1) n)

/-- The read-out x . w + b with the bias given as a length-N vector. -/
def affineVec {M J N : ℕ} (x : Mat M J) (w : Mat J N) (b : Vc N) : Mat M N :=
  ofEntries fun p n => (∑ j : Fin J, x (ix2 p j) * w (ix2 j n)) + b (ix1 n)

theorem combine_apply {M K N : ℕ} (a : Mat M K) (s : Mat M 1) (h : Mat M K) (wl : Mat K N) (b : Mat 1 N)
    (wr : Mat K N) (p : Fin M) (n : Fin N) :
    combine a s h wl b wr (ix2 p n)
      = max (((∑ k : Fin K, (a (ix2 p k) * s (ix2 p (0 : Fin 1))) * wl (ix2 k n)) + b (ix2 (0 : Fin 1) n))
          + ∑ k : Fin K, h (ix2 p k) * wr (ix2 k n)) 0 := rfl

theorem combineDiv_apply {M K N : ℕ} (a : Mat M K) (d : Vc M) (h : Mat M K) (wl : Mat K N) (b : Vc N)
    (wr : Mat K N) (p : Fin M) (n : Fin N) :
    combineDiv a d h wl b wr (ix2 p n)
      = max (((∑ k : Fin K, Ideal.div (a (ix2 p k)) (d (ix1 p)) * wl (ix2 k n)) + b (ix1 n))
          + ∑ k : Fin K, h (ix2 p k) * wr (ix2 k n)) 0 := rfl

theorem affine_apply {M J N : ℕ} (x : Mat M J) (w : Mat J N) (b : Mat 1 N) (p : Fin M) (n : Fin N) :
    affine x w b (ix2 p n) = (∑ j : Fin J, x (ix2 p j) * w (ix2 j n)) + b (ix2 (0 : Fin 1) n) := rfl

theorem affineVec_apply {M J N : ℕ} (x : Mat M J) (w : Mat J N) (b : Vc N) (p : Fin M) (n : Fin N) :
    affineVec x w b (ix2 p n) = (∑ j : Fin J, x (ix2 p j) * w (ix2 j n)) + b (ix1 n) := rfl

/-- On the extended reals, multiplying by the quotient 1 / d is dividing by d, for every d other than zero. -/
theorem mul_one_div (x d : EReal) (hd : d ≠ 0) : x * Ideal.div 1 d = Ideal.div x d := by
  unfold Ideal.div
  rw [if_neg hd, if_neg hd, one_mul]

/-- The two arrangements of a layer agree when the reciprocal column is 1 / d with d nowhere zero and the bias row
    holds the bias vector. -/
theorem combine_eq_combineDiv {M K N : ℕ} (a : Mat M K) (s : Mat M 1) (d : Vc M) (h : Mat M K) (wl : Mat K N)
    (b : Mat 1 N) (b' : Vc N) (wr : Mat K N)
    (hs : ∀ p : Fin M, s (ix2 p (0 : Fin 1)) = Ideal.div 1 (d (ix1 p))) (hd : ∀ p : Fin M, d (ix1 p) ≠ 0)
    (hb : ∀ n : Fin N, b (ix2 (0 : Fin 1) n) = b' (ix1 n)) :
    combine a s h wl b wr = combineDiv a d h wl b' wr := by
  funext i
  obtain ⟨p, n, rfl⟩ : ∃ (p : Fin M) (n : Fin N), i = ix2 p n := ⟨i 0, i 1, eq_ix2 i⟩
  rw [combine_apply, combineDiv_apply, hb]
  congr 3
  refine Finset.sum_congr rfl fun k _ => ?_
  rw [hs, mul_one_div _ _ (hd _)]

/-- The two forms of the read-out agree when the bias row holds the bias vector. -/
theorem affine_eq_affineVec {M J N : ℕ} (x : Mat M J) (w : Mat J N) (b : Mat 1 N) (b' : Vc N)
    (hb : ∀ n : Fin N, b (ix2 (0 : Fin 1) n) = b' (ix1 n)) : affine x w b = affineVec x w b' := by
  funext i
  obtain ⟨p, n, rfl⟩ : ∃ (p : Fin M) (n : Fin N), i = ix2 p n := ⟨i 0, i 1, eq_ix2 i⟩
  rw [affine_apply, affineVec_apply, hb]

/-- A layer's row p depends only on row p of the neighbour sums, of the reciprocal column and of the features:
    computed from the rows `f p` of larger arrays it is row `f p` of the layer of those arrays. -/
theorem combine_rows {M M' K N : ℕ} (f : Fin M → Fin M') (a : Mat M K) (s : Mat M 1) (h : Mat M K)
    (a' : Mat M' K) (s' : Mat M' 1) (h' : Mat M' K) (wl : Mat K N) (b : Mat 1 N) (wr : Mat K N)
    (ha : ∀ p k, a (ix2 p k) = a' (ix2 (f p) k)) (hs : ∀ p, s (ix2 p (0 : Fin 1)) = s' (ix2 (f p) (0 : Fin 1)))
    (hh : ∀ p k, h (ix2 p k) = h' (ix2 (f p) k)) (p : Fin M) (n : Fin N) :
    combine a s h wl b wr (ix2 p n) = combine a' s' h' wl b wr (ix2 (f p) n) := by
  rw [combine_apply, combine_apply, hs]
  simp only [ha, hh]

/-- The read-out's row p depends only on row p of its input. -/
theorem affine_rows {M M' J N : ℕ} (f : Fin M → Fin M') (x : Mat M J) (x' : Mat M' J) (w : Mat J N) (b : Mat 1 N)
    (hx : ∀ p j, x (ix2 p j) = x' (ix2 (f p) j)) (p : Fin M) (n : Fin N) :
    affine x w b (ix2 p n) = affine x' w b (ix2 (f p) n) := by
  rw [affine_apply, affine_apply]
  simp only [hx]

end Cert.Sage

end
-- ==== Proof.LibSageNet.lean ====
/-
  THREE MEAN-AGGREGATION GRAPH-CONVOLUTION LAYERS AS WHOLE-ARRAY FUNCTIONS OVER THE EXTENDED REALS.

  For node features h (M nodes, K channels), neighbour sums a (M x K), two K x N weight matrices and a bias, one layer's
  output at node p and channel n is
        act( ( sum_k a~(p,k) * wl(k,n)  +  sum_k h(p,k) * wr(k,n) )  +  b(n) ),
  where act is v |-> max v 0 (the first two layers) or the identity (the last), and a~ is the neighbour sum scaled by the
  node's in-degree in one of two ways:
    * `layerMul`: a(p,k) times a precomputed reciprocal s(p), s an M x 1 column, the bias a 1 x N row;
    * `layerDiv`: a(p,k) divided by d(p), d an M x 1 column, the bias a length-N vector.
  When s(p) = 1 / d(p) and d(p) is not zero the two agree entry by entry, because x * (1 / d) = x / d for EVERY extended
  real x (both sides are x times the inverse of d; nothing is asked to be finite). The sums, the products and the order of
  the three summands are the same on both sides.

  A network is three such layers, each layer's neighbour sums being an operator `agg` (the same for the three layers,
  any function of a feature matrix) of the layer's input features: `netMul`, `netDiv`. The law lifts layer by layer
  (`netMul_eq_netDiv`), for any `agg`.

  Row p of a layer's output depends only on row p of a, of the scale and of h (`layerMul_rows`): a computation done on
  blocks of rows is the whole-array function restricted to those rows.
-/
import Idealize.ShloMosaic.Lib.ValueIdx
import Idealize.ShloMosaic.PureOps.Ideal
import proofs.«131813_j86199993631208_2_alg».proof.Proof.LibSageLayer

noncomputable section

open scoped BigOperators

namespace Cert.Net

open Idealize.ShloMosaic Idealize.ShloMosaic.ValueIdx
open Cert.Sage (Mat Vc ofEntries ofEntries_apply mul_one_div)

/-- The activation of a layer: the positive part, or nothing. -/
def act (relu : Bool) (v : EReal) : EReal := if relu then max v 0 else v

/-- A layer with the neighbour sums multiplied by a reciprocal column `s` and the bias given as a 1 x N row. -/
def layerMul (relu : Bool) {M K N : ℕ} (a : Mat M K) (s : Mat M 1) (h : Mat M K) (wl wr : Mat K N) (b : Mat 1 N) :
    Mat M N :=
  ofEntries fun p n =>
    act relu (((∑ k : Fin K, (a (ix2 p k) * s (ix2 p (0 : Fin 1))) * wl (ix2 k n))
      + ∑ k : Fin K, h (ix2 p k) * wr (ix2 k n)) + b (ix2 (0 : Fin 1) n))

/-- A layer with the neighbour sums divided by a degree column `d` and the bias given as a length-N vector. -/
def layerDiv (relu : Bool) {M K N : ℕ} (a : Mat M K) (d : Mat M 1) (h : Mat M K) (wl wr : Mat K N) (b : Vc N) :
    Mat M N :=
  ofEntries fun p n =>
    act relu (((∑ k : Fin K, Ideal.div (a (ix2 p k)) (d (ix2 p (0 : Fin 1))) * wl (ix2 k n))
      + ∑ k : Fin K, h (ix2 p k) * wr (ix2 k n)) + b (ix1 n))

theorem layerMul_apply (relu : Bool) {M K N : ℕ} (a : Mat M K) (s : Mat M 1) (h : Mat M K) (wl wr : Mat K N)
    (b : Mat 1 N) (p : Fin M) (n : Fin N) :
    layerMul relu a s h wl wr b (ix2 p n)
      = act relu (((∑ k : Fin K, (a (ix2 p k) * s (ix2 p (0 : Fin 1))) * wl (ix2 k n))
          + ∑ k : Fin K, h (ix2 p k) * wr (ix2 k n)) + b (ix2 (0 : Fin 1) n)) := rfl

theorem layerDiv_apply (relu : Bool) {M K N : ℕ} (a : Mat M K) (d : Mat M 1) (h : Mat M K) (wl wr : Mat K N)
    (b : Vc N) (p : Fin M) (n : Fin N) :
    layerDiv relu a d h wl wr b (ix2 p n)
      = act relu (((∑ k : Fin K, Ideal.div (a (ix2 p k)) (d (ix2 p (0 : Fin 1))) * wl (ix2 k n))
          + ∑ k : Fin K, h (ix2 p k) * wr (ix2 k n)) + b (ix1 n)) := rfl

/-- The two arrangements of a layer agree when the reciprocal column is 1 / d with d nowhere zero and the bias row
    holds the bias vector. -/
theorem layerMul_eq_layerDiv (relu : Bool) {M K N : ℕ} (a : Mat M K) (s d : Mat M 1) (h : Mat M K) (wl wr : Mat K N)
    (b : Mat 1 N) (b' : Vc N)
    (hs : ∀ p : Fin M, s (ix2 p (0 : Fin 1)) = Ideal.div 1 (d (ix2 p (0 : Fin 1))))
    (hd : ∀ p : Fin M, d (ix2 p (0 : Fin 1)) ≠ 0)
    (hb : ∀ n : Fin N, b (ix2 (0 : Fin 1) n) = b' (ix1 n)) :
    layerMul relu a s h wl wr b = layerDiv relu a d h wl wr b' := by
  funext i
  obtain ⟨p, n, rfl⟩ : ∃ (p : Fin M) (n : Fin N), i = ix2 p n := ⟨i 0, i 1, eq_ix2 i⟩
  rw [layerMul_apply, layerDiv_apply, hb]
  congr 3
  refine Finset.sum_congr rfl fun k _ => ?_
  rw [hs, mul_one_div _ _ (hd _)]

/-- A layer's row p depends only on row p of the neighbour sums, of the reciprocal column and of the features:
    computed from the rows `f p` of larger arrays it is row `f p` of the layer of those arrays. -/
theorem layerMul_rows (relu : Bool) {M M' K N : ℕ} (f : Fin M → Fin M') (a : Mat M K) (s : Mat M 1) (h : Mat M K)
    (a' : Mat M' K) (s' : Mat M' 1) (h' : Mat M' K) (wl wr : Mat K N) (b : Mat 1 N)
    (ha : ∀ p k, a (ix2 p k) = a' (ix2 (f p) k)) (hs : ∀ p, s (ix2 p (0 : Fin 1)) = s' (ix2 (f p) (0 : Fin 1)))
    (hh : ∀ p k, h (ix2 p k) = h' (ix2 (f p) k)) (p : Fin M) (n : Fin N) :
    layerMul relu a s h wl wr b (ix2 p n) = layerMul relu a' s' h' wl wr b (ix2 (f p) n) := by
  rw [layerMul_apply, layerMul_apply, hs]
  simp only [ha, hh]

/-- Three layers, the neighbour sums of each being `agg` of its input features, scaled by the reciprocal column `s`;
    the first two layers followed by the positive part. -/
def netMul {M D : ℕ} (agg : Mat M D → Mat M D) (s : Mat M 1) (x : Mat M D)
    (wl0 wr0 : Mat D D) (b0 : Mat 1 D) (wl1 wr1 : Mat D D) (b1 : Mat 1 D) (wl2 wr2 : Mat D D) (b2 : Mat 1 D) : Mat M D :=
  layerMul false (agg (layerMul true (agg (layerMul true (agg x) s x wl0 wr0 b0)) s (layerMul true (agg x) s x wl0 wr0 b0) wl1 wr1 b1))
    s (layerMul true (agg (layerMul true (agg x) s x wl0 wr0 b0)) s (layerMul true (agg x) s x wl0 wr0 b0) wl1 wr1 b1) wl2 wr2 b2

/-- Three layers, the neighbour sums of each being `agg` of its input features, divided by the degree column `d`. -/
def netDiv {M D : ℕ} (agg : Mat M D → Mat M D) (d : Mat M 1) (x : Mat M D)
    (wl0 wr0 : Mat D D) (b0 : Vc D) (wl1 wr1 : Mat D D) (b1 : Vc D) (wl2 wr2 : Mat D D) (b2 : Vc D) : Mat M D :=
  layerDiv false (agg (layerDiv true (agg (layerDiv true (agg x) d x wl0 wr0 b0)) d (layerDiv true (agg x) d x wl0 wr0 b0) wl1 wr1 b1))
    d (layerDiv true (agg (layerDiv true (agg x) d x wl0 wr0 b0)) d (layerDiv true (agg x) d x wl0 wr0 b0) wl1 wr1 b1) wl2 wr2 b2

/-- The two networks agree when the reciprocal column is 1 / d with d nowhere zero and each bias row holds its bias
    vector: the layer law, three times. -/
theorem netMul_eq_netDiv {M D : ℕ} (agg : Mat M D → Mat M D) (s d : Mat M 1) (x : Mat M D)
    (wl0 wr0 : Mat D D) (b0 : Mat 1 D) (b0' : Vc D) (wl1 wr1 : Mat D D) (b1 : Mat 1 D) (b1' : Vc D)
    (wl2 wr2 : Mat D D) (b2 : Mat 1 D) (b2' : Vc D)
    (hs : ∀ p : Fin M, s (ix2 p (0 : Fin 1)) = Ideal.div 1 (d (ix2 p (0 : Fin 1))))
    (hd : ∀ p : Fin M, d (ix2 p (0 : Fin 1)) ≠ 0)
    (hb0 : ∀ n : Fin D, b0 (ix2 (0 : Fin 1) n) = b0' (ix1 n))
    (hb1 : ∀ n : Fin D, b1 (ix2 (0 : Fin 1) n) = b1' (ix1 n))
    (hb2 : ∀ n : Fin D, b2 (ix2 (0 : Fin 1) n) = b2' (ix1 n)) :
    netMul agg s x wl0 wr0 b0 wl1 wr1 b1 wl2 wr2 b2 = netDiv agg d x wl0 wr0 b0' wl1 wr1 b1' wl2 wr2 b2' := by
  unfold netMul netDiv
  rw [layerMul_eq_layerDiv true (agg x) s d x wl0 wr0 b0 b0' hs hd hb0]
  rw [layerMul_eq_layerDiv true _ s d _ wl1 wr1 b1 b1' hs hd hb1]
  rw [layerMul_eq_layerDiv false _ s d _ wl2 wr2 b2 b2' hs hd hb2]

end Cert.Net

end
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.LibFusedSageNet.lean ====
/-
  A THREE-LAYER MEAN-AGGREGATION GRAPH NETWORK IN TWO ARRANGEMENTS, OVER THE EXTENDED REALS.

  A graph on M nodes has E edges; edge e carries the features of its source node `src e` to the node it lands on,
  and `L p` is the finite set of edges landing on node p. The neighbour sum of a feature matrix h is
        (nbrSum L src h)(p, k) = 0 + sum over e in L p of h(src e, k).
  One layer maps features h to  act( (sum_k a~(p,k) wl(k,n) + sum_k h(p,k) wr(k,n)) + b(n) ), a~ the neighbour sum of h
  scaled by the node's degree (the layers of the companion file).

  The reference arrangement (`refNet`) divides every layer's neighbour sums by the degree column d. The other
  arrangement (`fusedNet`) multiplies by a reciprocal column s in the first two layers and, in the LAST layer, first
  projects the hidden features through wl (`proj`), then takes the neighbour sum of the projected rows and scales it:
        out(p, n) = (sum_k h(p,k) wr(k,n) + (0 + sum_{e in L p} sum_k h(src e,k) wl(k,n)) * s(p)) + b(n).
  Summing rows along edges commutes with multiplying by a matrix,
        sum_k ((0 + sum_e h(src e,k)) / d) wl(k,n) = (0 + sum_e sum_k h(src e,k) wl(k,n)) * (1/d),
  because each side is the double sum of h(src e,k) * wl(k,n) * d^-1; moving a factor across a sum is distributivity,
  which holds at REAL entries and fails at the infinities. So the last layer's law needs the hidden features and the
  weights to be real numbers; that every layer keeps real entries real (`layerMul_real`) carries this from the inputs.
  The inverse of ANY extended real is a real number (the infinities' inverse is 0), so nothing is asked of the degree
  beyond d(p) not being zero.
-/
import Idealize.ShloMosaic.Lib.ValueIdx
import Idealize.ShloMosaic.PureOps.Ideal
import proofs.«131813_j86199993631208_2_alg».proof.Proof.LibSageNet
import proofs.«131813_j86199993631208_2_alg».proof.Proof.LibFinite

noncomputable section

open scoped BigOperators

namespace Cert.GNet

open Idealize.ShloMosaic Idealize.ShloMosaic.ValueIdx
open Cert.Sage (Mat Vc ofEntries ofEntries_apply mul_one_div)
open Cert.Net (act layerMul layerDiv layerMul_apply layerDiv_apply layerMul_eq_layerDiv)
open Cert.Lib.Finite (IsReal)

/-- The neighbour sums of a feature matrix: row p is, from zero, the sum of the rows `src e` over the edges e landing on p. -/
def nbrSum {M E D : ℕ} (L : Fin M → Finset (Fin E)) (src : Fin E → Fin M) (h : Mat M D) : Mat M D :=
  ofEntries fun p k => 0 + ∑ e ∈ L p, h (ix2 (src e) k)

theorem nbrSum_apply {M E D : ℕ} (L : Fin M → Finset (Fin E)) (src : Fin E → Fin M) (h : Mat M D) (p : Fin M) (k : Fin D) :
    nbrSum L src h (ix2 p k) = 0 + ∑ e ∈ L p, h (ix2 (src e) k) := rfl

/-- The product of a feature matrix with a weight matrix. -/
def proj {M K N : ℕ} (h : Mat M K) (w : Mat K N) : Mat M N :=
  ofEntries fun p n => ∑ k : Fin K, h (ix2 p k) * w (ix2 k n)

theorem proj_apply {M K N : ℕ} (h : Mat M K) (w : Mat K N) (p : Fin M) (n : Fin N) :
    proj h w (ix2 p n) = ∑ k : Fin K, h (ix2 p k) * w (ix2 k n) := rfl

/-- The last layer with the projection taken BEFORE the neighbour sum: `ay` holds the neighbour sums of the projected
    rows, scaled by the reciprocal column `s`; no activation. -/
def lastMul {M K N : ℕ} (ay : Mat M N) (s : Mat M 1) (h : Mat M K) (wr : Mat K N) (b : Mat 1 N) : Mat M N :=
  ofEntries fun p n => ((∑ k : Fin K, h (ix2 p k) * wr (ix2 k n)) + ay (ix2 p n) * s (ix2 p (0 : Fin 1))) + b (ix2 (0 : Fin 1) n)

theorem lastMul_apply {M K N : ℕ} (ay : Mat M N) (s : Mat M 1) (h : Mat M K) (wr : Mat K N) (b : Mat 1 N) (p : Fin M) (n : Fin N) :
    lastMul ay s h wr b (ix2 p n)
      = ((∑ k : Fin K, h (ix2 p k) * wr (ix2 k n)) + ay (ix2 p n) * s (ix2 p (0 : Fin 1))) + b (ix2 (0 : Fin 1) n) := rfl

/-! ## Real entries stay real -/

theorem isReal_inv (y : EReal) : IsReal y⁻¹ := by
  induction y using EReal.rec with
  | bot => exact ⟨0, EReal.inv_bot⟩
  | top => exact ⟨0, EReal.inv_top⟩
  | coe r => exact ⟨r⁻¹, (EReal.coe_inv r).symm⟩

/-- A reciprocal 1 / d with d not zero is a real number. -/
theorem isReal_one_div {d : EReal} (hd : d ≠ 0) : IsReal (Ideal.div 1 d) := by
  unfold Ideal.div
  rw [if_neg hd, one_mul]
  exact isReal_inv d

theorem nbrSum_real {M E D : ℕ} (L : Fin M → Finset (Fin E)) (src : Fin E → Fin M) (h : Mat M D)
    (hh : ∀ i, IsReal (h i)) (i) : IsReal (nbrSum L src h i) := by
  obtain ⟨p, k, rfl⟩ : ∃ (p : Fin M) (k : Fin D), i = ix2 p k := ⟨i 0, i 1, eq_ix2 i⟩
  rw [nbrSum_apply]
  exact Cert.Lib.Finite.add Cert.Lib.Finite.zero (Cert.Lib.Finite.sum _ _ fun e _ => hh _)

theorem proj_real {M K N : ℕ} (h : Mat M K) (w : Mat K N) (hh : ∀ i, IsReal (h i)) (hw : ∀ i, IsReal (w i)) (i) :
    IsReal (proj h w i) := by
  obtain ⟨p, n, rfl⟩ : ∃ (p : Fin M) (n : Fin N), i = ix2 p n := ⟨i 0, i 1, eq_ix2 i⟩
  rw [proj_apply]
  exact Cert.Lib.Finite.sum _ _ fun k _ => Cert.Lib.Finite.mul (hh _) (hw _)

theorem act_real (relu : Bool) {v : EReal} (hv : IsReal v) : IsReal (act relu v) := by
  unfold act
  cases relu
  · exact hv
  · exact Cert.Lib.Finite.max hv Cert.Lib.Finite.zero

/-- A layer of real neighbour sums, scale, features, weights and bias has real entries. -/
theorem layerMul_real (relu : Bool) {M K N : ℕ} (a : Mat M K) (s : Mat M 1) (h : Mat M K) (wl wr : Mat K N) (b : Mat 1 N)
    (ha : ∀ i, IsReal (a i)) (hs : ∀ i, IsReal (s i)) (hh : ∀ i, IsReal (h i)) (hwl : ∀ i, IsReal (wl i))
    (hwr : ∀ i, IsReal (wr i)) (hb : ∀ i, IsReal (b i)) (i) : IsReal (layerMul relu a s h wl wr b i) := by
  obtain ⟨p, n, rfl⟩ : ∃ (p : Fin M) (n : Fin N), i = ix2 p n := ⟨i 0, i 1, eq_ix2 i⟩
  rw [layerMul_apply]
  refine act_real relu (Cert.Lib.Finite.add (Cert.Lib.Finite.add ?_ ?_) (hb _))
  · exact Cert.Lib.Finite.sum _ _ fun k _ => Cert.Lib.Finite.mul (Cert.Lib.Finite.mul (ha _) (hs _)) (hwl _)
  · exact Cert.Lib.Finite.sum _ _ fun k _ => Cert.Lib.Finite.mul (hh _) (hwr _)

/-! ## The last layer: projecting before or after the neighbour sum -/

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Dividing the summed rows by d and then contracting with a weight column equals contracting every row first,
    summing, and multiplying by 1 / d: at real rows and weights, for any d other than zero. -/
theorem edge_contract {E K : Type} [Fintype K] (T : Finset E) (xs : E → K → EReal) (w : K → EReal) (d : EReal)
    (hx : ∀ e k, IsReal (xs e k)) (hw : ∀ k, IsReal (w k)) (hd : d ≠ 0) :
    ∑ k, Ideal.div (0 + ∑ e ∈ T, xs e k) d * w k = (0 + ∑ e ∈ T, ∑ k, xs e k * w k) * Ideal.div 1 d := by
  classical
  obtain ⟨r, hr⟩ := isReal_inv d
  choose xr hxr using hx
  choose wr hwr using hw
  unfold Ideal.div
  simp only [if_neg hd, one_mul, hr, hxr, hwr, zero_add, ← EReal.coe_mul, ← coe_sum]
  refine congrArg _ ?_
  simp only [Finset.sum_mul]
  rw [Finset.sum_comm]
  exact Finset.sum_congr rfl fun e _ => Finset.sum_congr rfl fun k _ => by ring

/-- The last layer computed from the neighbour sums of the PROJECTED rows and a reciprocal column is the layer that
    divides the neighbour sums by the degree and projects afterwards, at real features and weights. -/
theorem lastMul_eq_layerDiv {M E K N : ℕ} (L : Fin M → Finset (Fin E)) (src : Fin E → Fin M) (s d : Mat M 1) (h : Mat M K)
    (wl wr : Mat K N) (b : Mat 1 N) (b' : Vc N)
    (hs : ∀ p : Fin M, s (ix2 p (0 : Fin 1)) = Ideal.div 1 (d (ix2 p (0 : Fin 1))))
    (hd : ∀ p : Fin M, d (ix2 p (0 : Fin 1)) ≠ 0)
    (hb : ∀ n : Fin N, b (ix2 (0 : Fin 1) n) = b' (ix1 n))
    (hh : ∀ i, IsReal (h i)) (hwl : ∀ i, IsReal (wl i)) :
    lastMul (nbrSum L src (proj h wl)) s h wr b = layerDiv false (nbrSum L src h) d h wl wr b' := by
  funext i
  obtain ⟨p, n, rfl⟩ : ∃ (p : Fin M) (n : Fin N), i = ix2 p n := ⟨i 0, i 1, eq_ix2 i⟩
  rw [lastMul_apply, layerDiv_apply, hb, hs]
  show _ = ((∑ k : Fin K, Ideal.div (nbrSum L src h (ix2 p k)) (d (ix2 p (0 : Fin 1))) * wl (ix2 k n))
      + ∑ k : Fin K, h (ix2 p k) * wr (ix2 k n)) + b' (ix1 n)
  rw [add_comm (∑ k : Fin K, h (ix2 p k) * wr (ix2 k n))]
  congr 2
  simp only [nbrSum_apply, proj_apply]
  exact (edge_contract (L p) (fun e k => h (ix2 (src e) k)) (fun k => wl (ix2 k n)) _ (fun _ _ => hh _) (fun _ => hwl _) (hd p)).symm

/-! ## The two networks -/

/-- Three layers with every neighbour sum divided by the degree column (the reference arrangement). -/
def refNet {M E A B C N : ℕ} (L : Fin M → Finset (Fin E)) (src : Fin E → Fin M) (d : Mat M 1) (x : Mat M A)
    (wl0 wr0 : Mat A B) (b0 : Vc B) (wl1 wr1 : Mat B C) (b1 : Vc C) (wl2 wr2 : Mat C N) (b2 : Vc N) : Mat M N :=
  layerDiv false
    (nbrSum L src (layerDiv true (nbrSum L src (layerDiv true (nbrSum L src x) d x wl0 wr0 b0)) d
      (layerDiv true (nbrSum L src x) d x wl0 wr0 b0) wl1 wr1 b1))
    d (layerDiv true (nbrSum L src (layerDiv true (nbrSum L src x) d x wl0 wr0 b0)) d
      (layerDiv true (nbrSum L src x) d x wl0 wr0 b0) wl1 wr1 b1) wl2 wr2 b2

/-- Three layers with a reciprocal column, the last one projecting before its neighbour sum. -/
def fusedNet {M E A B C N : ℕ} (L : Fin M → Finset (Fin E)) (src : Fin E → Fin M) (s : Mat M 1) (x : Mat M A)
    (wl0 wr0 : Mat A B) (b0 : Mat 1 B) (wl1 wr1 : Mat B C) (b1 : Mat 1 C) (wl2 wr2 : Mat C N) (b2 : Mat 1 N) : Mat M N :=
  lastMul
    (nbrSum L src (proj (layerMul true (nbrSum L src (layerMul true (nbrSum L src x) s x wl0 wr0 b0)) s
      (layerMul true (nbrSum L src x) s x wl0 wr0 b0) wl1 wr1 b1) wl2))
    s (layerMul true (nbrSum L src (layerMul true (nbrSum L src x) s x wl0 wr0 b0)) s
      (layerMul true (nbrSum L src x) s x wl0 wr0 b0) wl1 wr1 b1) wr2 b2

/-- The two networks agree at real inputs, when the reciprocal column is 1 / d with d nowhere zero and each bias row
    holds its bias vector. -/
theorem fusedNet_eq_refNet {M E A B C N : ℕ} (L : Fin M → Finset (Fin E)) (src : Fin E → Fin M) (s d : Mat M 1) (x : Mat M A)
    (wl0 wr0 : Mat A B) (b0 : Mat 1 B) (b0' : Vc B) (wl1 wr1 : Mat B C) (b1 : Mat 1 C) (b1' : Vc C)
    (wl2 wr2 : Mat C N) (b2 : Mat 1 N) (b2' : Vc N)
    (hs : ∀ p : Fin M, s (ix2 p (0 : Fin 1)) = Ideal.div 1 (d (ix2 p (0 : Fin 1))))
    (hd : ∀ p : Fin M, d (ix2 p (0 : Fin 1)) ≠ 0)
    (hb0 : ∀ n, b0 (ix2 (0 : Fin 1) n) = b0' (ix1 n)) (hb1 : ∀ n, b1 (ix2 (0 : Fin 1) n) = b1' (ix1 n))
    (hb2 : ∀ n, b2 (ix2 (0 : Fin 1) n) = b2' (ix1 n))
    (hx : ∀ i, IsReal (x i)) (hwl0 : ∀ i, IsReal (wl0 i)) (hwr0 : ∀ i, IsReal (wr0 i)) (hB0 : ∀ i, IsReal (b0 i))
    (hwl1 : ∀ i, IsReal (wl1 i)) (hwr1 : ∀ i, IsReal (wr1 i)) (hB1 : ∀ i, IsReal (b1 i)) (hwl2 : ∀ i, IsReal (wl2 i)) :
    fusedNet L src s x wl0 wr0 b0 wl1 wr1 b1 wl2 wr2 b2 = refNet L src d x wl0 wr0 b0' wl1 wr1 b1' wl2 wr2 b2' := by
  have hsr : ∀ i, IsReal (s i) := fun i => by
    obtain ⟨p, q, rfl⟩ : ∃ (p : Fin M) (q : Fin 1), i = ix2 p q := ⟨i 0, i 1, eq_ix2 i⟩
    obtain rfl : q = 0 := Subsingleton.elim _ _
    rw [hs]; exact isReal_one_div (hd p)
  have h0r : ∀ i, IsReal (layerMul true (nbrSum L src x) s x wl0 wr0 b0 i) :=
    layerMul_real true _ _ _ _ _ _ (nbrSum_real L src x hx) hsr hx hwl0 hwr0 hB0
  have h1r : ∀ i, IsReal (layerMul true (nbrSum L src (layerMul true (nbrSum L src x) s x wl0 wr0 b0)) s
      (layerMul true (nbrSum L src x) s x wl0 wr0 b0) wl1 wr1 b1 i) :=
    layerMul_real true _ _ _ _ _ _ (nbrSum_real L src _ h0r) hsr h0r hwl1 hwr1 hB1
  unfold fusedNet refNet
  rw [lastMul_eq_layerDiv L src s d _ wl2 wr2 b2 b2' hs hd hb2 h1r hwl2]
  rw [layerMul_eq_layerDiv true (nbrSum L src x) s d x wl0 wr0 b0 b0' hs hd hb0]
  rw [layerMul_eq_layerDiv true _ s d _ wl1 wr1 b1 b1' hs hd hb1]

end Cert.GNet

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.TileLayers.lean ====
/-
  THE THREE KERNEL BODIES AS LAYERS OF THE NETWORK, AT THE EXACT VALUES.

  Each body works on a block of 5000 rows. With a the block of neighbour sums, s the block of reciprocal degrees
  (a 5000 x 1 column repeated along the rows), h the block of features, wl and wr the weight matrices and b the bias
  row (a 1 x N row repeated down the rows), the first body stores
        max( (sum_k (a(p,k) * s(p)) * wl(k,n) + sum_k h(p,k) * wr(k,n)) + b(n) , 0 ),
  the two matrix products being taken into zero accumulators and the narrowing of their operands to a shorter float
  format being the identity at the exact values: one layer `layerMul true`. The second body stores the same layer and,
  beside it, that layer's product with a third weight matrix (`proj`). The third body stores
        (sum_k h(p,k) * wr(k,n) + a(p,n) * s(p)) + b(n)      (`lastMul`).
-/
import proofs.«131813_j86199993631208_2_alg».proof.Proof.Gen.KernelIdeal.Skeleton
import proofs.«131813_j86199993631208_2_alg».proof.Proof.LibFusedSageNet
import proofs.«131813_j86199993631208_2_alg».proof.Proof.LibPlainMatmul
import proofs.«131813_j86199993631208_2_alg».proof.Proof.LibColumn
import Idealize.ShloMosaic.Lib.ValueIdx
import Idealize.ShloMosaic.Lib.ValueLayout
import Idealize.ShloMosaic.Lib.Pipeline.Value

noncomputable section

open scoped BigOperators

namespace Cert.Tile

open Idealize.ShloMosaic Idealize.ShloMosaic.ValueIdx
open Cert.Sage (Mat Vc)
open Cert.Net (act layerMul layerMul_apply)
open Cert.GNet (proj proj_apply lastMul lastMul_apply)
open Cert.LibPlainMatmul (matmul_eq_plain_zero_apply)
open Cert.Column (broadcastTo_a1_ab_apply)

theorem scalar_zero : Scalar.ofBits (F := Ideal) .f32 0x00000000#32 = (0 : EReal) := Ideal.ofBits_zero_f32

/-- A layer in the spelling of a kernel body: two matrix products into zero accumulators, their sum, the bias row
    repeated down the rows, the maximum with zero. -/
theorem tile_layer {M K N : ℕ} (D : DotDims ⟨2, ![M, K]⟩ ⟨2, ![K, N]⟩ ⟨2, ![M, N]⟩) (hD : D = DotDims.plain M K N)
    (a : FVec Ideal ⟨2, ![M, K]⟩ .f32) (s : FVec Ideal ⟨2, ![M, 1]⟩ .f32) (h : FVec Ideal ⟨2, ![M, K]⟩ .f32)
    (wl wr : FVec Ideal ⟨2, ![K, N]⟩ .f32) (b : FVec Ideal ⟨2, ![1, N]⟩ .f32)
    (hs : (⟨2, ![M, 1]⟩ : Shape).Broadcasts ⟨2, ![M, K]⟩) (hb : (⟨2, ![1, N]⟩ : Shape).Broadcasts ⟨2, ![M, N]⟩)
    (hlt : FTy.bf16.bits < FTy.f32.bits) :
    maximumf (addf (addf
        (matmul D none (truncf .bf16 (mulf a (broadcastTo ⟨2, ![M, K]⟩ s hs)) hlt) (truncf .bf16 wl hlt)
          (constant (F := Ideal) ⟨2, ![M, N]⟩ .f32 0x00000000#32))
        (matmul D none (truncf .bf16 h hlt) (truncf .bf16 wr hlt) (constant (F := Ideal) ⟨2, ![M, N]⟩ .f32 0x00000000#32)))
        (broadcastTo ⟨2, ![M, N]⟩ b hb)) (broadcast ⟨2, ![M, N]⟩ (Scalar.ofBits (F := Ideal) .f32 0x00000000#32))
      = layerMul true a s h wl wr b := by
  funext i
  obtain ⟨p, n, rfl⟩ : ∃ (p : Fin M) (n : Fin N), i = ix2 p n := ⟨i 0, i 1, eq_ix2 i⟩
  rw [layerMul_apply, maximumf_apply, addf_apply, addf_apply, matmul_eq_plain_zero_apply D hD,
    matmul_eq_plain_zero_apply D hD, broadcastTo_1b_ab_apply, broadcast_apply, scalar_zero]
  simp only [truncf_apply, mulf_apply, broadcastTo_a1_ab_apply]
  rfl

/-- The product with a further weight matrix, in the spelling of a kernel body. -/
theorem tile_proj {M K N : ℕ} (D : DotDims ⟨2, ![M, K]⟩ ⟨2, ![K, N]⟩ ⟨2, ![M, N]⟩) (hD : D = DotDims.plain M K N)
    (h : FVec Ideal ⟨2, ![M, K]⟩ .f32) (w : FVec Ideal ⟨2, ![K, N]⟩ .f32) (hlt : FTy.bf16.bits < FTy.f32.bits) :
    matmul D none (truncf .bf16 h hlt) (truncf .bf16 w hlt) (constant (F := Ideal) ⟨2, ![M, N]⟩ .f32 0x00000000#32)
      = proj h w := by
  funext i
  obtain ⟨p, n, rfl⟩ : ∃ (p : Fin M) (n : Fin N), i = ix2 p n := ⟨i 0, i 1, eq_ix2 i⟩
  rw [proj_apply, matmul_eq_plain_zero_apply D hD]
  simp only [truncf_apply]

/-- The last layer in the spelling of a kernel body: the product of the features with wr, plus the scaled neighbour
    sums of the projected rows, plus the bias row. -/
theorem tile_last {M K N : ℕ} (D : DotDims ⟨2, ![M, K]⟩ ⟨2, ![K, N]⟩ ⟨2, ![M, N]⟩) (hD : D = DotDims.plain M K N)
    (ay : FVec Ideal ⟨2, ![M, N]⟩ .f32) (s : FVec Ideal ⟨2, ![M, 1]⟩ .f32) (h : FVec Ideal ⟨2, ![M, K]⟩ .f32)
    (wr : FVec Ideal ⟨2, ![K, N]⟩ .f32) (b : FVec Ideal ⟨2, ![1, N]⟩ .f32)
    (hs : (⟨2, ![M, 1]⟩ : Shape).Broadcasts ⟨2, ![M, N]⟩) (hb : (⟨2, ![1, N]⟩ : Shape).Broadcasts ⟨2, ![M, N]⟩)
    (hlt : FTy.bf16.bits < FTy.f32.bits) :
    addf (addf (matmul D none (truncf .bf16 h hlt) (truncf .bf16 wr hlt) (constant (F := Ideal) ⟨2, ![M, N]⟩ .f32 0x00000000#32))
        (mulf ay (broadcastTo ⟨2, ![M, N]⟩ s hs))) (broadcastTo ⟨2, ![M, N]⟩ b hb)
      = lastMul ay s h wr b := by
  funext i
  obtain ⟨p, n, rfl⟩ : ∃ (p : Fin M) (n : Fin N), i = ix2 p n := ⟨i 0, i 1, eq_ix2 i⟩
  rw [lastMul_apply, addf_apply, addf_apply, matmul_eq_plain_zero_apply D hD, broadcastTo_1b_ab_apply, mulf_apply,
    broadcastTo_a1_ab_apply]
  simp only [truncf_apply]

/-! ## The printed payloads -/

open Cert.KernelIdeal Cert.KernelIdeal.Gen

/-- The first body's stored value is one layer of its loaded blocks. -/
theorem pay0_eq (x0 : Vec Ideal S5000x128 .f32) (x1 : Vec Ideal S5000x1 .f32) (x2 : Vec Ideal S5000x128 .f32)
    (x3 x4 : Vec Ideal S128x128 .f32) (x5 : Vec Ideal S1x128 .f32) :
    k0_pay1 (F := Ideal) x0 x1 x2 x3 x4 x5 = layerMul true x0 x1 x2 x3 x4 x5 := by
  unfold k0_pay1
  simp only [shapeCast_self]
  exact tile_layer _ rfl x0 x1 x2 x3 x4 x5 _ _ _

/-- The second body's first stored value is one layer of its loaded blocks. -/
theorem pay1_eq (x0 : Vec Ideal S5000x128 .f32) (x1 : Vec Ideal S5000x1 .f32) (x2 : Vec Ideal S5000x128 .f32)
    (x3 x4 : Vec Ideal S128x128 .f32) (x5 : Vec Ideal S1x128 .f32) :
    k1_pay1 (F := Ideal) x0 x1 x2 x3 x4 x5 = layerMul true x0 x1 x2 x3 x4 x5 := by
  unfold k1_pay1
  simp only [shapeCast_self]
  exact tile_layer _ rfl x0 x1 x2 x3 x4 x5 _ _ _

/-- The second body's other stored value is that layer times the next layer's weight matrix. -/
theorem pay1y_eq (x0 : Vec Ideal S5000x128 .f32) (x1 : Vec Ideal S5000x1 .f32) (x2 : Vec Ideal S5000x128 .f32)
    (x3 x4 : Vec Ideal S128x128 .f32) (x5 : Vec Ideal S1x128 .f32) (x6 : Vec Ideal S128x64 .f32) :
    k1_pay2 (F := Ideal) x0 x1 x2 x3 x4 x5 x6 = proj (layerMul true x0 x1 x2 x3 x4 x5) x6 := by
  unfold k1_pay2
  simp only [shapeCast_self]
  rw [pay1_eq]
  exact tile_proj _ rfl _ x6 _

/-- The third body's stored value is the last layer of its loaded blocks. -/
theorem pay2_eq (x0 : Vec Ideal S5000x64 .f32) (x1 : Vec Ideal S5000x1 .f32) (x2 : Vec Ideal S5000x128 .f32)
    (x3 : Vec Ideal S128x64 .f32) (x4 : Vec Ideal S1x64 .f32) :
    k2_pay1 (F := Ideal) x0 x1 x2 x3 x4 = lastMul x0 x1 x2 x3 x4 := by
  unfold k2_pay1
  simp only [shapeCast_self]
  exact tile_last _ rfl x0 x1 x2 x3 x4 _ _ _

end Cert.Tile

end
-- ==== Proof.BlockRows.lean ====
/-
  ROWS OF A LAYER DEPEND ON ROWS OF ITS INPUTS.

  The kernels work on blocks of 5000 consecutive rows: block t holds rows 5000 t, …, 5000 t + 4999 of a 100000-row
  array. Row p of a product, and of the last layer, depends only on row p of the row-indexed operands, so a value
  computed from block t is the whole-array value at the rows of block t.
-/
import proofs.«131813_j86199993631208_2_alg».proof.Proof.LibFusedSageNet

noncomputable section

open scoped BigOperators

namespace Cert.Rows

open Idealize.ShloMosaic Idealize.ShloMosaic.ValueIdx
open Cert.Sage (Mat Vc)
open Cert.GNet (proj proj_apply lastMul lastMul_apply)

/-- Row p of block t, as a row of the whole array. -/
def row (t : ℕ) (ht : t < 20) (p : Fin 5000) : Fin 100000 := ⟨t * 5000 + p.val, by have := p.isLt; omega⟩

theorem hz : (![0, 0] : Fin 2 → Nat) = fun _ => 0 := funext fun a => by fin_cases a <;> rfl

/-- A product's row p depends only on row p of its left factor. -/
theorem proj_rows {M M' K N : ℕ} (f : Fin M → Fin M') (h : Mat M K) (h' : Mat M' K) (w : Mat K N)
    (hh : ∀ p k, h (ix2 p k) = h' (ix2 (f p) k)) (p : Fin M) (n : Fin N) :
    proj h w (ix2 p n) = proj h' w (ix2 (f p) n) := by
  rw [proj_apply, proj_apply]
  simp only [hh]

/-- The last layer's row p depends only on row p of the scaled sums, of the reciprocal column and of the features. -/
theorem lastMul_rows {M M' K N : ℕ} (f : Fin M → Fin M') (ay : Mat M N) (s : Mat M 1) (h : Mat M K)
    (ay' : Mat M' N) (s' : Mat M' 1) (h' : Mat M' K) (wr : Mat K N) (b : Mat 1 N)
    (ha : ∀ p n, ay (ix2 p n) = ay' (ix2 (f p) n)) (hs : ∀ p, s (ix2 p (0 : Fin 1)) = s' (ix2 (f p) (0 : Fin 1)))
    (hh : ∀ p k, h (ix2 p k) = h' (ix2 (f p) k)) (p : Fin M) (n : Fin N) :
    lastMul ay s h wr b (ix2 p n) = lastMul ay' s' h' wr b (ix2 (f p) n) := by
  rw [lastMul_apply, lastMul_apply, hs, ha]
  simp only [hh]

end Cert.Rows

end
-- ==== Proof.Region0.lean ====
/-
  REGION 0 OF THE KERNEL PROGRAM: what its output array holds when the region is left, as one function of the arrays it is
  entered with.

  The grid has 20 points; point t fetches rows 5000 t … 5000 t + 4999 of each row-indexed operand and the whole of each
  weight matrix and bias row, runs the body, and writes 5000 rows back. What the body leaves is a layer of the
  network of the fetched blocks; a layer's row depends on the same row of its row-indexed operands only, so the rows
  written back are the rows of that layer of the WHOLE arrays, and the 20 blocks fill the output array.
-/
import proofs.«131813_j86199993631208_2_alg».proof.Proof.Gen.KernelIdeal.Frame
import proofs.«131813_j86199993631208_2_alg».proof.Proof.TileLayers
import proofs.«131813_j86199993631208_2_alg».proof.Proof.BlockRows
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen
open Cert.Sage (Mat Vc)
open Cert.Net (layerMul layerMul_rows)
open Cert.GNet (proj lastMul)
open Cert.Rows (row hz proj_rows lastMul_rows)

variable (V : (c : Dev nD) → (b : Ref sig .tc) → Buf (Elt Ideal) ((c : Thread nD τ).loc b))

/-- The printed index maps over the grid: a row-indexed window's block index along the rows is the point's number, every
    other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt20 (t : Fin cfg0.N) : t.val < 20 := lt_of_lt_of_eq t.isLt N_0

/-- Window 0's block at point t holds rows 5000 t … of its array. -/
theorem blk_0 (c : Dev nD) (t : Fin cfg0.N) (p : Fin 5000) (k : Fin 128) :
    iblk0 V c 0 t (ix2 p k) = (V c main_v28 : S100000x128.Idx → EReal) (ix2 (row t.val (lt20 t) p) k) := by
  show V c main_v28 (((cfg0.win 0).blk t).view.emb (ix2 p k)) = _
  refine congrArg _ (funext fun a => Fin.ext ?_)
  obtain ⟨e0r, e0c, e1r, e1c, e2r, e2c, e3r, e3c, e4r, e4c, e5r, e5c, e6r, e6c⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1's block at point t holds rows 5000 t … of its array. -/
theorem blk_1 (c : Dev nD) (t : Fin cfg0.N) (p : Fin 5000) (k : Fin 1) :
    iblk0 V c 1 t (ix2 p k) = (V c main_v12 : S100000x1.Idx → EReal) (ix2 (row t.val (lt20 t) p) k) := by
  show V c main_v12 (((cfg0.win 1).blk t).view.emb (ix2 p k)) = _
  refine congrArg _ (funext fun a => Fin.ext ?_)
  obtain ⟨e0r, e0c, e1r, e1c, e2r, e2c, e3r, e3c, e4r, e4c, e5r, e5c, e6r, e6c⟩ := idx_facts t
  match a with
  | ⟨0, _⟩ => show win0_1.index t (0 : Fin 2) * 5000 + 1 * p.val = t.val * 5000 + p.val; omega
  | ⟨1, _⟩ => show win0_1.index t (1 : Fin 2) * 1 + 1 * k.val = k.val; omega

/-- Window 2's block at point t holds rows 5000 t … of its array. -/
theorem blk_2 (c : Dev nD) (t : Fin cfg0.N) (p : Fin 5000) (k : Fin 128) :
    iblk0 V c 2 t (ix2 p k) = (V c main_arg0 : S100000x128.Idx → EReal) (ix2 (row t.val (lt20 t) p) k) := by
  show V c main_arg0 (((cfg0.win 2).blk t).view.emb (ix2 p k)) = _
  refine congrArg _ (funext fun a => Fin.ext ?_)
  obtain ⟨e0r, e0c, e1r, e1c, e2r, e2c, e3r, e3c, e4r, e4c, e5r, e5c, e6r, e6c⟩ := idx_facts t
  match a with
  | ⟨0, _⟩ => show win0_2.index t (0 : Fin 2) * 5000 + 1 * p.val = t.val * 5000 + p.val; omega
  | ⟨1, _⟩ => show win0_2.index t (1 : Fin 2) * 128 + 1 * k.val = k.val; omega

/-- Window 3's block at every point is its whole array. -/
theorem blk_3 (c : Dev nD) (t : Fin cfg0.N) : iblk0 V c 3 t = (V c main_v13 : S128x128.Idx → EReal) := by
  funext y
  show V c main_v13 (((cfg0.win 3).blk t).view.emb y) = _
  refine congrArg _ (funext fun a => Fin.ext ?_)
  obtain ⟨e0r, e0c, e1r, e1c, e2r, e2c, e3r, e3c, e4r, e4c, e5r, e5c, e6r, e6c⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block at every point is its whole array. -/
theorem blk_4 (c : Dev nD) (t : Fin cfg0.N) : iblk0 V c 4 t = (V c main_v14 : S128x128.Idx → EReal) := by
  funext y
  show V c main_v14 (((cfg0.win 4).blk t).view.emb y) = _
  refine congrArg _ (funext fun a => Fin.ext ?_)
  obtain ⟨e0r, e0c, e1r, e1c, e2r, e2c, e3r, e3c, e4r, e4c, e5r, e5c, e6r, e6c⟩ := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is its whole array. -/
theorem blk_5 (c : Dev nD) (t : Fin cfg0.N) : iblk0 V c 5 t = (V c main_v29 : S1x128.Idx → EReal) := by
  funext y
  show V c main_v29 (((cfg0.win 5).blk t).view.emb y) = _
  refine congrArg _ (funext fun a => Fin.ext ?_)
  obtain ⟨e0r, e0c, e1r, e1c, e2r, e2c, e3r, e3c, e4r, e4c, e5r, e5c, e6r, e6c⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Where row p, column n of output window 6's block at point t sits in the array. -/
theorem emb_6 (t : Fin cfg0.N) (p : Fin 5000) (n : Fin 128) :
    ((cfg0.win 6).blk t).view.emb (ix2 p n) = (ix2 (row t.val (lt20 t) p) n : S100000x128.Idx) := by
  refine funext fun a => Fin.ext ?_
  obtain ⟨e0r, e0c, e1r, e1c, e2r, e2c, e3r, e3c, e4r, e4c, e5r, e5c, e6r, e6c⟩ := idx_facts t
  match a with
  | ⟨0, _⟩ => show win0_6.index t (0 : Fin 2) * 5000 + 1 * p.val = t.val * 5000 + p.val; omega
  | ⟨1, _⟩ => show win0_6.index t (1 : Fin 2) * 128 + 1 * n.val = n.val; omega

/-- The whole-array function output window 6 ends at. -/
abbrev G6 (c : Dev nD) : S100000x128.Idx → EReal :=
  layerMul true (V c main_v28 : S100000x128.Idx → EReal) (V c main_v12 : S100000x1.Idx → EReal) (V c main_arg0 : S100000x128.Idx → EReal) (V c main_v13 : S128x128.Idx → EReal) (V c main_v14 : S128x128.Idx → EReal) (V c main_v29 : S1x128.Idx → EReal)

/-- What point t writes back through output window 6 is block t of that function. -/
theorem flushed_6 (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S1x128) hz]
  rw [Cert.Tile.pay0_eq]
  funext j
  obtain ⟨p, n, rfl⟩ : ∃ (p : Fin 5000) (n : Fin 128), j = ix2 p n := ⟨j 0, j 1, eq_ix2 j⟩
  show _ = G6 V c (((cfg0.win 6).blk t).view.emb (ix2 p n))
  rw [emb_6 t p n, blk_3 V c t, blk_4 V c t, blk_5 V c t]
  exact layerMul_rows true (row t.val (lt20 t)) _ _ _ _ _ _ _ _ _ (blk_0 V c t) (fun p => blk_1 V c t p 0) (blk_2 V c t) p n

/-- An index of the array is in point t's block of output window 6 iff each coordinate is in the block's range. -/
theorem mem_blk_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v30).slice (win0_6.rect t)).set ↔ _
  rw [View.set_slice_whole, Rect.mem_set_unit]
  exact Iff.rfl

/-- Every index of the array is in the block of the point its row falls in. -/
theorem cover_6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := by show (i 0).val / 5000 < 20; omega
  refine ⟨⟨(i 0).val / 5000, hN⟩, flush0_6 _, ?_⟩
  rw [mem_blk_6]
  obtain ⟨e0r, e0c, e1r, e1c, e2r, e2c, e3r, e3c, e4r, e4c, e5r, e5c, e6r, e6c⟩ := idx_facts ⟨(i 0).val / 5000, hN⟩
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e6r]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e6c]; omega

/-- THE ARRAY of output window 6 when the region is left. -/
theorem final_6 (c : Dev nD) : (dat0 V c).arrAt 6 cfg0.N = G6 V c :=
  (dat0 V c).arrAt_eq_of_cover 6 (G6 V c) (fun t _ => flushed_6 V c t) cover_6

end Cert.KernelIdeal.Region0

end
-- ==== Proof.Region1.lean ====
/-
  REGION 1 OF THE KERNEL PROGRAM: what its output arrays hold when the region is left, as functions of the arrays it is
  entered with.

  The grid has 20 points; point t fetches rows 5000 t … 5000 t + 4999 of each row-indexed operand and the whole of each
  weight matrix and bias row, runs the body, and writes 5000 rows back. What the body leaves is a layer of the
  network of the fetched blocks; a layer's row depends on the same row of its row-indexed operands only, so the rows
  written back are the rows of that layer of the WHOLE arrays, and the 20 blocks fill the output array.
-/
import proofs.«131813_j86199993631208_2_alg».proof.Proof.Gen.KernelIdeal.Frame
import proofs.«131813_j86199993631208_2_alg».proof.Proof.TileLayers
import proofs.«131813_j86199993631208_2_alg».proof.Proof.BlockRows
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen
open Cert.Sage (Mat Vc)
open Cert.Net (layerMul layerMul_rows)
open Cert.GNet (proj lastMul)
open Cert.Rows (row hz proj_rows lastMul_rows)

variable (V : (c : Dev nD) → (b : Ref sig .tc) → Buf (Elt Ideal) ((c : Thread nD τ).loc b))

/-- The printed index maps over the grid: a row-indexed window's block index along the rows is the point's number, every
    other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem lt20 (t : Fin cfg1.N) : t.val < 20 := lt_of_lt_of_eq t.isLt N_1

/-- Window 0's block at point t holds rows 5000 t … of its array. -/
theorem blk_0 (c : Dev nD) (t : Fin cfg1.N) (p : Fin 5000) (k : Fin 128) :
    iblk1 V c 0 t (ix2 p k) = (V c main_v40 : S100000x128.Idx → EReal) (ix2 (row t.val (lt20 t) p) k) := by
  show V c main_v40 (((cfg1.win 0).blk t).view.emb (ix2 p k)) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1's block at point t holds rows 5000 t … of its array. -/
theorem blk_1 (c : Dev nD) (t : Fin cfg1.N) (p : Fin 5000) (k : Fin 1) :
    iblk1 V c 1 t (ix2 p k) = (V c main_v12 : S100000x1.Idx → EReal) (ix2 (row t.val (lt20 t) p) k) := by
  show V c main_v12 (((cfg1.win 1).blk t).view.emb (ix2 p k)) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_1.index t (0 : Fin 2) * 5000 + 1 * p.val = t.val * 5000 + p.val; omega
  | ⟨1, _⟩ => show win1_1.index t (1 : Fin 2) * 1 + 1 * k.val = k.val; omega

/-- Window 2's block at point t holds rows 5000 t … of its array. -/
theorem blk_2 (c : Dev nD) (t : Fin cfg1.N) (p : Fin 5000) (k : Fin 128) :
    iblk1 V c 2 t (ix2 p k) = (V c main_v30 : S100000x128.Idx → EReal) (ix2 (row t.val (lt20 t) p) k) := by
  show V c main_v30 (((cfg1.win 2).blk t).view.emb (ix2 p k)) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_2.index t (0 : Fin 2) * 5000 + 1 * p.val = t.val * 5000 + p.val; omega
  | ⟨1, _⟩ => show win1_2.index t (1 : Fin 2) * 128 + 1 * k.val = k.val; omega

/-- Window 3's block at every point is its whole array. -/
theorem blk_3 (c : Dev nD) (t : Fin cfg1.N) : iblk1 V c 3 t = (V c main_v15 : S128x128.Idx → EReal) := by
  funext y
  show V c main_v15 (((cfg1.win 3).blk t).view.emb y) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block at every point is its whole array. -/
theorem blk_4 (c : Dev nD) (t : Fin cfg1.N) : iblk1 V c 4 t = (V c main_v16 : S128x128.Idx → EReal) := by
  funext y
  show V c main_v16 (((cfg1.win 4).blk t).view.emb y) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block at every point is its whole array. -/
theorem blk_5 (c : Dev nD) (t : Fin cfg1.N) : iblk1 V c 5 t = (V c main_v41 : S1x128.Idx → EReal) := by
  funext y
  show V c main_v41 (((cfg1.win 5).blk t).view.emb y) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block at every point is its whole array. -/
theorem blk_6 (c : Dev nD) (t : Fin cfg1.N) : iblk1 V c 6 t = (V c main_v17 : S128x64.Idx → EReal) := by
  funext y
  show V c main_v17 (((cfg1.win 6).blk t).view.emb y) = _
  refine congrArg _ (funext fun a => Fin.ext ?_)
  obtain ⟨e0r, e0c, e1r, e1c, e2r, e2c, e3r, e3c, e4r, e4c, e5r, e5c, e6r, e6c, e7r, e7c, e8r, e8c⟩ := idx_facts t
  match a with
  | ⟨0, _⟩ => show win1_6.index t (0 : Fin 2) * 128 + 1 * (y 0).val = (y 0).val; omega
  | ⟨1, _⟩ => show win1_6.index t (1 : Fin 2) * 64 + 1 * (y 1).val = (y 1).val; omega

/-- Where row p, column n of output window 7's block at point t sits in the array. -/
theorem emb_7 (t : Fin cfg1.N) (p : Fin 5000) (n : Fin 128) :
    ((cfg1.win 7).blk t).view.emb (ix2 p n) = (ix2 (row t.val (lt20 t) p) n : S100000x128.Idx) := by
  refine funext fun a => Fin.ext ?_
  obtain ⟨e0r, e0c, e1r, e1c, e2r, e2c, e3r, e3c, e4r, e4c, e5r, e5c, e6r, e6c, e7r, e7c, e8r, e8c⟩ := idx_facts t
  match a with
  | ⟨0, _⟩ => show win1_7.index t (0 : Fin 2) * 5000 + 1 * p.val = t.val * 5000 + p.val; omega
  | ⟨1, _⟩ => show win1_7.index t (1 : Fin 2) * 128 + 1 * n.val = n.val; omega

/-- The whole-array function output window 7 ends at. -/
abbrev G7 (c : Dev nD) : S100000x128.Idx → EReal :=
  layerMul true (V c main_v40 : S100000x128.Idx → EReal) (V c main_v12 : S100000x1.Idx → EReal) (V c main_v30 : S100000x128.Idx → EReal) (V c main_v15 : S128x128.Idx → EReal) (V c main_v16 : S128x128.Idx → EReal) (V c main_v41 : S1x128.Idx → EReal)

/-- What point t writes back through output window 7 is block t of that function. -/
theorem flushed_7 (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz, View.ld_unit_zero (S := S128x128) hz, View.ld_unit_zero (S := S1x128) hz]
  rw [Cert.Tile.pay1_eq]
  funext j
  obtain ⟨p, n, rfl⟩ : ∃ (p : Fin 5000) (n : Fin 128), j = ix2 p n := ⟨j 0, j 1, eq_ix2 j⟩
  show _ = G7 V c (((cfg1.win 7).blk t).view.emb (ix2 p n))
  rw [emb_7 t p n, blk_3 V c t, blk_4 V c t, blk_5 V c t]
  exact layerMul_rows true (row t.val (lt20 t)) _ _ _ _ _ _ _ _ _ (blk_0 V c t) (fun p => blk_1 V c t p 0) (blk_2 V c t) p n

/-- An index of the array is in point t's block of output window 7 iff each coordinate is in the block's range. -/
theorem mem_blk_7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v42_0).slice (win1_7.rect t)).set ↔ _
  rw [View.set_slice_whole, Rect.mem_set_unit]
  exact Iff.rfl

/-- Every index of the array is in the block of the point its row falls in. -/
theorem cover_7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : (i 0).val / 5000 < cfg1.N := by show (i 0).val / 5000 < 20; omega
  refine ⟨⟨(i 0).val / 5000, hN⟩, flush1_7 _, ?_⟩
  rw [mem_blk_7]
  obtain ⟨e0r, e0c, e1r, e1c, e2r, e2c, e3r, e3c, e4r, e4c, e5r, e5c, e6r, e6c, e7r, e7c, e8r, e8c⟩ := idx_facts ⟨(i 0).val / 5000, hN⟩
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e7r]; show (i 0).val / 5000 * 5000 ≤ (i 0).val ∧ (i 0).val < (i 0).val / 5000 * 5000 + 5000; omega
  | ⟨1, _⟩ =>
    show win1_7.index ⟨(i 0).val / 5000, hN⟩ (1 : Fin 2) * 128 ≤ (i 1).val ∧ (i 1).val < win1_7.index ⟨(i 0).val / 5000, hN⟩ (1 : Fin 2) * 128 + 128
    rw [e7c]; omega

/-- THE ARRAY of output window 7 when the region is left. -/
theorem final_7 (c : Dev nD) : (dat1 V c).arrAt 7 cfg1.N = G7 V c :=
  (dat1 V c).arrAt_eq_of_cover 7 (G7 V c) (fun t _ => flushed_7 V c t) cover_7

/-- Where row p, column n of output window 8's block at point t sits in the array. -/
theorem emb_8 (t : Fin cfg1.N) (p : Fin 5000) (n : Fin 64) :
    ((cfg1.win 8).blk t).view.emb (ix2 p n) = (ix2 (row t.val (lt20 t) p) n : S100000x64.Idx) := by
  refine funext fun a => Fin.ext ?_
  obtain ⟨e0r, e0c, e1r, e1c, e2r, e2c, e3r, e3c, e4r, e4c, e5r, e5c, e6r, e6c, e7r, e7c, e8r, e8c⟩ := idx_facts t
  match a with
  | ⟨0, _⟩ => show win1_8.index t (0 : Fin 2) * 5000 + 1 * p.val = t.val * 5000 + p.val; omega
  | ⟨1, _⟩ => show win1_8.index t (1 : Fin 2) * 64 + 1 * n.val = n.val; omega

/-- The whole-array function output window 8 ends at. -/
abbrev G8 (c : Dev nD) : S100000x64.Idx → EReal :=
  proj (layerMul true (V c main_v40 : S100000x128.Idx → EReal) (V c main_v12 : S100000x1.Idx → EReal) (V c main_v30 : S100000x128.Idx → EReal) (V c main_v15 : S128x128.Idx → EReal) (V c main_v16 : S128x128.Idx → EReal) (V c main_v41 : S1x128.Idx → EReal)) (V c main_v17 : S128x64.Idx → EReal)

/-- What point t writes back through output window 8 is block t of that function. -/
theorem flushed_8 (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz, View.ld_unit_zero (S := S1x128) hz, View.ld_unit_zero (S := S128x64) hz]
  rw [Cert.Tile.pay1y_eq]
  funext j
  obtain ⟨p, n, rfl⟩ : ∃ (p : Fin 5000) (n : Fin 64), j = ix2 p n := ⟨j 0, j 1, eq_ix2 j⟩
  show _ = G8 V c (((cfg1.win 8).blk t).view.emb (ix2 p n))
  rw [emb_8 t p n, blk_3 V c t, blk_4 V c t, blk_5 V c t, blk_6 V c t]
  exact proj_rows (row t.val (lt20 t)) _ _ _ (fun p k => layerMul_rows true (row t.val (lt20 t)) _ _ _ _ _ _ _ _ _ (blk_0 V c t) (fun p => blk_1 V c t p 0) (blk_2 V c t) p k) p n

/-- An index of the array is in point t's block of output window 8 iff each coordinate is in the block's range. -/
theorem mem_blk_8 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v42_1).slice (win1_8.rect t)).set ↔ _
  rw [View.set_slice_whole, Rect.mem_set_unit]
  exact Iff.rfl

/-- Every index of the array is in the block of the point its row falls in. -/
theorem cover_8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : (i 0).val / 5000 < cfg1.N := by show (i 0).val / 5000 < 20; omega
  refine ⟨⟨(i 0).val / 5000, hN⟩, flush1_8 _, ?_⟩
  rw [mem_blk_8]
  obtain ⟨e0r, e0c, e1r, e1c, e2r, e2c, e3r, e3c, e4r, e4c, e5r, e5c, e6r, e6c, e7r, e7c, e8r, e8c⟩ := idx_facts ⟨(i 0).val / 5000, hN⟩
  intro a
  match a with
  | ⟨0, _⟩ =>
    show win1_8.index ⟨(i 0).val / 5000, hN⟩ (0 : Fin 2) * 5000 ≤ (i 0).val ∧ (i 0).val < win1_8.index ⟨(i 0).val / 5000, hN⟩ (0 : Fin 2) * 5000 + 5000
    rw [e8r]; show (i 0).val / 5000 * 5000 ≤ (i 0).val ∧ (i 0).val < (i 0).val / 5000 * 5000 + 5000; omega
  | ⟨1, _⟩ =>
    show win1_8.index ⟨(i 0).val / 5000, hN⟩ (1 : Fin 2) * 64 ≤ (i 1).val ∧ (i 1).val < win1_8.index ⟨(i 0).val / 5000, hN⟩ (1 : Fin 2) * 64 + 64
    rw [e8c]; omega

/-- THE ARRAY of output window 8 when the region is left. -/
theorem final_8 (c : Dev nD) : (dat1 V c).arrAt 8 cfg1.N = G8 V c :=
  (dat1 V c).arrAt_eq_of_cover 8 (G8 V c) (fun t _ => flushed_8 V c t) cover_8

end Cert.KernelIdeal.Region1

end
-- ==== Proof.Region2.lean ====
/-
  REGION 2 OF THE KERNEL PROGRAM: what its output array holds when the region is left, as one function of the arrays it is
  entered with.

  The grid has 20 points; point t fetches rows 5000 t … 5000 t + 4999 of each row-indexed operand and the whole of each
  weight matrix and bias row, runs the body, and writes 5000 rows back. What the body leaves is a layer of the
  network of the fetched blocks; a layer's row depends on the same row of its row-indexed operands only, so the rows
  written back are the rows of that layer of the WHOLE arrays, and the 20 blocks fill the output array.
-/
import proofs.«131813_j86199993631208_2_alg».proof.Proof.Gen.KernelIdeal.Frame
import proofs.«131813_j86199993631208_2_alg».proof.Proof.TileLayers
import proofs.«131813_j86199993631208_2_alg».proof.Proof.BlockRows
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen
open Cert.Sage (Mat Vc)
open Cert.Net (layerMul layerMul_rows)
open Cert.GNet (proj lastMul)
open Cert.Rows (row hz proj_rows lastMul_rows)

variable (V : (c : Dev nD) → (b : Ref sig .tc) → Buf (Elt Ideal) ((c : Thread nD τ).loc b))

/-- The printed index maps over the grid: a row-indexed window's block index along the rows is the point's number, every
    other block index is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt20 (t : Fin cfg2.N) : t.val < 20 := lt_of_lt_of_eq t.isLt N_2

/-- Window 0's block at point t holds rows 5000 t … of its array. -/
theorem blk_0 (c : Dev nD) (t : Fin cfg2.N) (p : Fin 5000) (k : Fin 64) :
    iblk2 V c 0 t (ix2 p k) = (V c main_v52 : S100000x64.Idx → EReal) (ix2 (row t.val (lt20 t) p) k) := by
  show V c main_v52 (((cfg2.win 0).blk t).view.emb (ix2 p k)) = _
  refine congrArg _ (funext fun a => Fin.ext ?_)
  obtain ⟨e0r, e0c, e1r, e1c, e2r, e2c, e3r, e3c, e4r, e4c, e5r, e5c⟩ := idx_facts t
  match a with
  | ⟨0, _⟩ => show win2_0.index t (0 : Fin 2) * 5000 + 1 * p.val = t.val * 5000 + p.val; omega
  | ⟨1, _⟩ => show win2_0.index t (1 : Fin 2) * 64 + 1 * k.val = k.val; omega

/-- Window 1's block at point t holds rows 5000 t … of its array. -/
theorem blk_1 (c : Dev nD) (t : Fin cfg2.N) (p : Fin 5000) (k : Fin 1) :
    iblk2 V c 1 t (ix2 p k) = (V c main_v12 : S100000x1.Idx → EReal) (ix2 (row t.val (lt20 t) p) k) := by
  show V c main_v12 (((cfg2.win 1).blk t).view.emb (ix2 p k)) = _
  refine congrArg _ (funext fun a => Fin.ext ?_)
  obtain ⟨e0r, e0c, e1r, e1c, e2r, e2c, e3r, e3c, e4r, e4c, e5r, e5c⟩ := idx_facts t
  match a with
  | ⟨0, _⟩ => show win2_1.index t (0 : Fin 2) * 5000 + 1 * p.val = t.val * 5000 + p.val; omega
  | ⟨1, _⟩ => show win2_1.index t (1 : Fin 2) * 1 + 1 * k.val = k.val; omega

/-- Window 2's block at point t holds rows 5000 t … of its array. -/
theorem blk_2 (c : Dev nD) (t : Fin cfg2.N) (p : Fin 5000) (k : Fin 128) :
    iblk2 V c 2 t (ix2 p k) = (V c main_v42_0 : S100000x128.Idx → EReal) (ix2 (row t.val (lt20 t) p) k) := by
  show V c main_v42_0 (((cfg2.win 2).blk t).view.emb (ix2 p k)) = _
  refine congrArg _ (funext fun a => Fin.ext ?_)
  obtain ⟨e0r, e0c, e1r, e1c, e2r, e2c, e3r, e3c, e4r, e4c, e5r, e5c⟩ := idx_facts t
  match a with
  | ⟨0, _⟩ => show win2_2.index t (0 : Fin 2) * 5000 + 1 * p.val = t.val * 5000 + p.val; omega
  | ⟨1, _⟩ => show win2_2.index t (1 : Fin 2) * 128 + 1 * k.val = k.val; omega

/-- Window 3's block at every point is its whole array. -/
theorem blk_3 (c : Dev nD) (t : Fin cfg2.N) : iblk2 V c 3 t = (V c main_v18 : S128x64.Idx → EReal) := by
  funext y
  show V c main_v18 (((cfg2.win 3).blk t).view.emb y) = _
  refine congrArg _ (funext fun a => Fin.ext ?_)
  obtain ⟨e0r, e0c, e1r, e1c, e2r, e2c, e3r, e3c, e4r, e4c, e5r, e5c⟩ := idx_facts t
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- Window 4's block at every point is its whole array. -/
theorem blk_4 (c : Dev nD) (t : Fin cfg2.N) : iblk2 V c 4 t = (V c main_v53 : S1x64.Idx → EReal) := by
  funext y
  show V c main_v53 (((cfg2.win 4).blk t).view.emb y) = _
  refine congrArg _ (funext fun a => Fin.ext ?_)
  obtain ⟨e0r, e0c, e1r, e1c, e2r, e2c, e3r, e3c, e4r, e4c, e5r, e5c⟩ := idx_facts t
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Where row p, column n of output window 5's block at point t sits in the array. -/
theorem emb_5 (t : Fin cfg2.N) (p : Fin 5000) (n : Fin 64) :
    ((cfg2.win 5).blk t).view.emb (ix2 p n) = (ix2 (row t.val (lt20 t) p) n : S100000x64.Idx) := by
  refine funext fun a => Fin.ext ?_
  obtain ⟨e0r, e0c, e1r, e1c, e2r, e2c, e3r, e3c, e4r, e4c, e5r, e5c⟩ := idx_facts t
  match a with
  | ⟨0, _⟩ => show win2_5.index t (0 : Fin 2) * 5000 + 1 * p.val = t.val * 5000 + p.val; omega
  | ⟨1, _⟩ => show win2_5.index t (1 : Fin 2) * 64 + 1 * n.val = n.val; omega

/-- The whole-array function output window 5 ends at. -/
abbrev G5 (c : Dev nD) : S100000x64.Idx → EReal :=
  lastMul (V c main_v52 : S100000x64.Idx → EReal) (V c main_v12 : S100000x1.Idx → EReal) (V c main_v42_0 : S100000x128.Idx → EReal) (V c main_v18 : S128x64.Idx → EReal) (V c main_v53 : S1x64.Idx → EReal)

/-- What point t writes back through output window 5 is block t of that function. -/
theorem flushed_5 (c : Dev nD) (t : Fin cfg2.N) :
    (dat2 V c).flushed 5 t = ((cfg2.win 5).blk t).view.read (Elt Ideal) (G5 V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S5000x128) hz, View.ld_unit_zero (S := S128x64) hz, View.ld_unit_zero (S := S1x64) hz]
  rw [Cert.Tile.pay2_eq]
  funext j
  obtain ⟨p, n, rfl⟩ : ∃ (p : Fin 5000) (n : Fin 64), j = ix2 p n := ⟨j 0, j 1, eq_ix2 j⟩
  show _ = G5 V c (((cfg2.win 5).blk t).view.emb (ix2 p n))
  rw [emb_5 t p n, blk_3 V c t, blk_4 V c t]
  exact lastMul_rows (row t.val (lt20 t)) _ _ _ _ _ _ _ _ (blk_0 V c t) (fun p => blk_1 V c t p 0) (blk_2 V c t) p n

/-- An index of the array is in point t's block of output window 5 iff each coordinate is in the block's range. -/
theorem mem_blk_5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

/-- Every index of the array is in the block of the point its row falls in. -/
theorem cover_5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := by show (i 0).val / 5000 < 20; omega
  refine ⟨⟨(i 0).val / 5000, hN⟩, flush2_5 _, ?_⟩
  rw [mem_blk_5]
  obtain ⟨e0r, e0c, e1r, e1c, e2r, e2c, e3r, e3c, e4r, e4c, e5r, e5c⟩ := idx_facts ⟨(i 0).val / 5000, hN⟩
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e5r]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    rw [e5c]; omega

/-- THE ARRAY of output window 5 when the region is left. -/
theorem final_5 (c : Dev nD) : (dat2 V c).arrAt 5 cfg2.N = G5 V c :=
  (dat2 V c).arrAt_eq_of_cover 5 (G5 V c) (fun t _ => flushed_5 V c t) cover_5

end Cert.KernelIdeal.Region2

end
-- ==== Proof.HostFold.lean ====
/-
  THE HOST OPERATIONS AROUND THE THREE KERNEL REGIONS, READ AS FUNCTIONS.

  From the edge list (a 2 x E integer array) the program takes the source and the destination of every edge; a negative
  source is shifted by the number of nodes. A feature matrix is aggregated by gathering the rows at the sources and
  adding them, from the zero matrix, into the rows at the destinations (`agg128`, `agg64` for the two widths); the
  reciprocal-degree column is 1 / max(deg, 1) with deg the same addition of ones (`invCol`). Each of the three host
  stretches of the program computes these of the buffers it is entered with, transposes the weight matrices and turns
  the bias vectors into rows; every other buffer it leaves alone.
-/
import proofs.«131813_j86199993631208_2_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.Host

open Idealize.ShloMosaic Idealize.ShloMosaic.TcCoe Idealize.SL.Sem Idealize.ShloMosaic.StableHlo
open Cert.KernelIdeal Cert.KernelIdeal.Gen

/-- The sources of the edges. -/
def srcVec (ei : IVec S2x1600000 32) : IVec S1600000 32 :=
  shapeCast S1600000 (extractStridedSlice S1x1600000 ![0, 0] ei slices_S2x1600000_S1x1600000_0_0) shapeCasts_S1x1600000_S1600000

/-- The destinations of the edges. -/
def dstVec (ei : IVec S2x1600000 32) : IVec S1600000 32 :=
  shapeCast S1600000 (extractStridedSlice S1x1600000 ![1, 0] ei slices_S2x1600000_S1x1600000_1_0) shapeCasts_S1x1600000_S1600000

/-- The sources as a column of row numbers, a negative one shifted by the number of nodes. -/
def srcCol (sv : IVec S1600000 32) : IVec S1600000x1 32 :=
  broadcastInDim S1600000x1 ![0] bcast_S1600000_S1600000x1_0
    (select (cmpi .slt sv (broadcastInDim S1600000 ![] bcast_S_S1600000 (constantI S_ 32 0#32)))
      (addi sv (broadcastInDim S1600000 ![] bcast_S_S1600000 (constantI S_ 32 100000#32))) sv)

/-- The destinations as a column of row numbers. -/
def dstCol (dv : IVec S1600000 32) : IVec S1600000x1 32 :=
  broadcastInDim S1600000x1 ![0] bcast_S1600000_S1600000x1_0 dv

/-- The rows of a 128-wide feature matrix at the sources, added into the rows at the destinations, from zero. -/
def agg128 (sv dv : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol dv)
    (Host.gather gather_S100000x128_S1600000x1_S1600000x128_1_0_n_n_0_1_1128 h (srcCol sv))

/-- The same for a 64-wide feature matrix. -/
def agg64 (sv dv : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol dv)
    (Host.gather gather_S100000x64_S1600000x1_S1600000x64_1_0_n_n_0_1_164 h (srcCol sv))

/-- The in-degrees: ones added into the destinations, from zero. -/
def degVec (dv : IVec S1600000 32) : FVec Ideal S100000 .f32 :=
  Host.scatterAdd scatter_S100000_S1600000x1_S1600000_n_0_0_1
    (broadcastInDim S100000 ![] bcast_S_S100000 (constant (F := Ideal) S_ .f32 0x00000000#32)) (dstCol dv)
    (broadcastInDim S1600000 ![] bcast_S_S1600000 (constant (F := Ideal) S_ .f32 0x3F800000#32))

/-- The reciprocal-degree column 1 / max(deg, 1). -/
def invCol (dv : IVec S1600000 32) : FVec Ideal S100000x1 .f32 :=
  shapeCast S100000x1
    (Host.divf (broadcastInDim S100000 ![] bcast_S_S100000 (constant (F := Ideal) S_ .f32 0x3F800000#32))
      (maximumf (degVec dv) (broadcastInDim S100000 ![] bcast_S_S100000 (constant (F := Ideal) S_ .f32 0x3F800000#32))))
    shapeCasts_S100000_S100000x1

/-- A 128 x 128 weight matrix transposed. -/
def tr128 (a : FVec Ideal S128x128 .f32) : FVec Ideal S128x128 .f32 := transpose S128x128 [1, 0] a transposes_S128x128_S128x128_1_0

/-- A 64 x 128 weight matrix transposed. -/
def tr64 (a : FVec Ideal S64x128 .f32) : FVec Ideal S128x64 .f32 := transpose S128x64 [1, 0] a transposes_S64x128_S128x64_1_0

/-- A length-128 bias vector as a row. -/
def row128 (a : FVec Ideal S128 .f32) : FVec Ideal S1x128 .f32 := shapeCast S1x128 a shapeCasts_S128_S1x128

/-- A length-64 bias vector as a row. -/
def row64 (a : FVec Ideal S64 .f32) : FVec Ideal S1x64 .f32 := shapeCast S1x64 a shapeCasts_S64_S1x64

/-! ## Host stretch 0, from any contents -/

section
variable (Wv : Valuation τ sig (Elt Ideal))

theorem s0_v28 : (StableHlo.after (hostOps0 (F := Ideal)) Wv (Proc.devRef .tc main_v28) : S100000x128.Idx → EReal) = agg128 (srcVec (Wv (Proc.devRef .tc main_arg1))) (dstVec (Wv (Proc.devRef .tc main_arg1))) (Wv (Proc.devRef .tc main_arg0)) := by
  after_results_simp
  rfl

theorem s0_v12 : (StableHlo.after (hostOps0 (F := Ideal)) Wv (Proc.devRef .tc main_v12) : S100000x1.Idx → EReal) = invCol (dstVec (Wv (Proc.devRef .tc main_arg1))) := by
  after_results_simp
  rfl

theorem s0_v13 : (StableHlo.after (hostOps0 (F := Ideal)) Wv (Proc.devRef .tc main_v13) : S128x128.Idx → EReal) = tr128 (Wv (Proc.devRef .tc main_arg2)) := by
  after_results_simp
  rfl

theorem s0_v14 : (StableHlo.after (hostOps0 (F := Ideal)) Wv (Proc.devRef .tc main_v14) : S128x128.Idx → EReal) = tr128 (Wv (Proc.devRef .tc main_arg3)) := by
  after_results_simp
  rfl

theorem s0_v15 : (StableHlo.after (hostOps0 (F := Ideal)) Wv (Proc.devRef .tc main_v15) : S128x128.Idx → EReal) = tr128 (Wv (Proc.devRef .tc main_arg5)) := by
  after_results_simp
  rfl

theorem s0_v16 : (StableHlo.after (hostOps0 (F := Ideal)) Wv (Proc.devRef .tc main_v16) : S128x128.Idx → EReal) = tr128 (Wv (Proc.devRef .tc main_arg6)) := by
  after_results_simp
  rfl

theorem s0_v17 : (StableHlo.after (hostOps0 (F := Ideal)) Wv (Proc.devRef .tc main_v17) : S128x64.Idx → EReal) = tr64 (Wv (Proc.devRef .tc main_arg8)) := by
  after_results_simp
  rfl

theorem s0_v18 : (StableHlo.after (hostOps0 (F := Ideal)) Wv (Proc.devRef .tc main_v18) : S128x64.Idx → EReal) = tr64 (Wv (Proc.devRef .tc main_arg9)) := by
  after_results_simp
  rfl

theorem s0_v29 : (StableHlo.after (hostOps0 (F := Ideal)) Wv (Proc.devRef .tc main_v29) : S1x128.Idx → EReal) = row128 (Wv (Proc.devRef .tc main_arg4)) := by
  after_results_simp
  rfl

theorem s0_v1 : (StableHlo.after (hostOps0 (F := Ideal)) Wv (Proc.devRef .tc main_v1) : IVec S1600000 32) = srcVec (Wv (Proc.devRef .tc main_arg1)) := by
  after_results_simp
  rfl

theorem s0_v3 : (StableHlo.after (hostOps0 (F := Ideal)) Wv (Proc.devRef .tc main_v3) : IVec S1600000 32) = dstVec (Wv (Proc.devRef .tc main_arg1)) := by
  after_results_simp
  rfl

theorem s0_arg0 : StableHlo.after (hostOps0 (F := Ideal)) Wv (Proc.devRef .tc main_arg0) = Wv (Proc.devRef .tc main_arg0) := by
  after_results_simp

theorem s0_arg7 : StableHlo.after (hostOps0 (F := Ideal)) Wv (Proc.devRef .tc main_arg7) = Wv (Proc.devRef .tc main_arg7) := by
  after_results_simp

theorem s0_arg10 : StableHlo.after (hostOps0 (F := Ideal)) Wv (Proc.devRef .tc main_arg10) = Wv (Proc.devRef .tc main_arg10) := by
  after_results_simp

end

/-! ## Host stretch 1, from any contents -/

section
variable (Wv : Valuation τ sig (Elt Ideal))

theorem s1_v40 : (StableHlo.after (hostOps1 (F := Ideal)) Wv (Proc.devRef .tc main_v40) : S100000x128.Idx → EReal) = agg128 (Wv (Proc.devRef .tc main_v1)) (Wv (Proc.devRef .tc main_v3)) (Wv (Proc.devRef .tc main_v30)) := by
  after_results_simp
  rfl

theorem s1_v41 : (StableHlo.after (hostOps1 (F := Ideal)) Wv (Proc.devRef .tc main_v41) : S1x128.Idx → EReal) = row128 (Wv (Proc.devRef .tc main_arg7)) := by
  after_results_simp
  rfl

theorem s1_v12 : StableHlo.after (hostOps1 (F := Ideal)) Wv (Proc.devRef .tc main_v12) = Wv (Proc.devRef .tc main_v12) := by
  after_results_simp

theorem s1_v30 : StableHlo.after (hostOps1 (F := Ideal)) Wv (Proc.devRef .tc main_v30) = Wv (Proc.devRef .tc main_v30) := by
  after_results_simp

theorem s1_v15 : StableHlo.after (hostOps1 (F := Ideal)) Wv (Proc.devRef .tc main_v15) = Wv (Proc.devRef .tc main_v15) := by
  after_results_simp

theorem s1_v16 : StableHlo.after (hostOps1 (F := Ideal)) Wv (Proc.devRef .tc main_v16) = Wv (Proc.devRef .tc main_v16) := by
  after_results_simp

theorem s1_v17 : StableHlo.after (hostOps1 (F := Ideal)) Wv (Proc.devRef .tc main_v17) = Wv (Proc.devRef .tc main_v17) := by
  after_results_simp

theorem s1_v1 : StableHlo.after (hostOps1 (F := Ideal)) Wv (Proc.devRef .tc main_v1) = Wv (Proc.devRef .tc main_v1) := by
  after_results_simp

theorem s1_v3 : StableHlo.after (hostOps1 (F := Ideal)) Wv (Proc.devRef .tc main_v3) = Wv (Proc.devRef .tc main_v3) := by
  after_results_simp

theorem s1_v18 : StableHlo.after (hostOps1 (F := Ideal)) Wv (Proc.devRef .tc main_v18) = Wv (Proc.devRef .tc main_v18) := by
  after_results_simp

theorem s1_arg10 : StableHlo.after (hostOps1 (F := Ideal)) Wv (Proc.devRef .tc main_arg10) = Wv (Proc.devRef .tc main_arg10) := by
  after_results_simp

end

/-! ## Host stretch 2, from any contents -/

section
variable (Wv : Valuation τ sig (Elt Ideal))

theorem s2_v52 : (StableHlo.after (hostOps2 (F := Ideal)) Wv (Proc.devRef .tc main_v52) : S100000x64.Idx → EReal) = agg64 (Wv (Proc.devRef .tc main_v1)) (Wv (Proc.devRef .tc main_v3)) (Wv (Proc.devRef .tc main_v42_1)) := by
  after_results_simp
  rfl

theorem s2_v53 : (StableHlo.after (hostOps2 (F := Ideal)) Wv (Proc.devRef .tc main_v53) : S1x64.Idx → EReal) = row64 (Wv (Proc.devRef .tc main_arg10)) := by
  after_results_simp
  rfl

theorem s2_v12 : StableHlo.after (hostOps2 (F := Ideal)) Wv (Proc.devRef .tc main_v12) = Wv (Proc.devRef .tc main_v12) := by
  after_results_simp

theorem s2_v42_0 : StableHlo.after (hostOps2 (F := Ideal)) Wv (Proc.devRef .tc main_v42_0) = Wv (Proc.devRef .tc main_v42_0) := by
  after_results_simp

theorem s2_v18 : StableHlo.after (hostOps2 (F := Ideal)) Wv (Proc.devRef .tc main_v18) = Wv (Proc.devRef .tc main_v18) := by
  after_results_simp

end

end Cert.KernelIdeal.Host

end
-- ==== Proof.KernelValue.lean ====
/-
  THE KERNEL PROGRAM'S RESULT AS A FUNCTION OF ITS ARGUMENTS.

  The buffer contents at the six boundaries of the program (after each host stretch, after each region) are followed
  from the launch memory: a host stretch computes the aggregations, the reciprocal-degree column, the transposed
  weights and the bias rows of the buffers it finds; a region replaces its output arrays by the layer of the arrays it
  is entered with; every other buffer passes through unchanged. With x the node features, h0 and h1 the first and
  second layers' outputs and y the projection of h1, the result buffer ends at the last layer of the aggregated y, the
  reciprocal degrees and h1.
-/
import proofs.«131813_j86199993631208_2_alg».proof.Proof.Region0
import proofs.«131813_j86199993631208_2_alg».proof.Proof.Region1
import proofs.«131813_j86199993631208_2_alg».proof.Proof.Region2
import proofs.«131813_j86199993631208_2_alg».proof.Proof.HostFold

set_option maxRecDepth 16384
set_option maxHeartbeats 1000000

noncomputable section

namespace Cert.KernelIdeal.Whole

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Host
open Cert.Sage (Mat Vc)
open Cert.Net (layerMul)
open Cert.GNet (proj lastMul)

variable (m : (ℓ : Loc nD τ sig) → Buf (Elt Ideal) ℓ) (ρ : Dev nD → PrngReg) (c : Dev nD)

/-- The edges' sources, destinations, and the reciprocal-degree column, of the launch memory. -/
def sv : IVec S1600000 32 := srcVec (m ((c : Thread nD τ).loc main_arg1) : IVec S2x1600000 32)
def dv : IVec S1600000 32 := dstVec (m ((c : Thread nD τ).loc main_arg1) : IVec S2x1600000 32)
def inv : S100000x1.Idx → EReal := invCol (dv m c)

/-- The first layer's output. -/
def h0 : S100000x128.Idx → EReal :=
  layerMul true (agg128 (sv m c) (dv m c) (m ((c : Thread nD τ).loc main_arg0) : S100000x128.Idx → EReal)) (inv m c) (m ((c : Thread nD τ).loc main_arg0) : S100000x128.Idx → EReal) (tr128 (m ((c : Thread nD τ).loc main_arg2) : S128x128.Idx → EReal)) (tr128 (m ((c : Thread nD τ).loc main_arg3) : S128x128.Idx → EReal)) (row128 (m ((c : Thread nD τ).loc main_arg4) : S128.Idx → EReal))

/-- The second layer's output. -/
def h1 : S100000x128.Idx → EReal :=
  layerMul true (agg128 (sv m c) (dv m c) (h0 m c)) (inv m c) (h0 m c) (tr128 (m ((c : Thread nD τ).loc main_arg5) : S128x128.Idx → EReal)) (tr128 (m ((c : Thread nD τ).loc main_arg6) : S128x128.Idx → EReal)) (row128 (m ((c : Thread nD τ).loc main_arg7) : S128.Idx → EReal))

/-- The second layer's output projected by the last layer's neighbour weights. -/
def yv : S100000x64.Idx → EReal := proj (h1 m c) (tr64 (m ((c : Thread nD τ).loc main_arg8) : S64x128.Idx → EReal))

/-- The program's result. -/
def outv : S100000x64.Idx → EReal :=
  lastMul (agg64 (sv m c) (dv m c) (yv m c)) (inv m c) (h1 m c) (tr64 (m ((c : Thread nD τ).loc main_arg9) : S64x128.Idx → EReal)) (row64 (m ((c : Thread nD τ).loc main_arg10) : S64.Idx → EReal))

theorem layerMul_congr {M K N : ℕ} {a a' : Mat M K} {s s' : Mat M 1} {h h' : Mat M K} {wl wl' wr wr' : Mat K N} {b b' : Mat 1 N}
    (ha : a = a') (hs : s = s') (hh : h = h') (hwl : wl = wl') (hwr : wr = wr') (hb : b = b') :
    layerMul true a s h wl wr b = layerMul true a' s' h' wl' wr' b' := by subst ha hs hh hwl hwr hb; rfl

theorem proj_congr {M K N : ℕ} {h h' : Mat M K} {w w' : Mat K N} (hh : h = h') (hw : w = w') : proj h w = proj h' w' := by
  subst hh hw; rfl

theorem lastMul_congr {M K N : ℕ} {a a' : Mat M N} {s s' : Mat M 1} {h h' : Mat M K} {wr wr' : Mat K N} {b b' : Mat 1 N}
    (ha : a = a') (hs : s = s') (hh : h = h') (hwr : wr = wr') (hb : b = b') :
    lastMul a s h wr b = lastMul a' s' h' wr' b' := by subst ha hs hh hwr hb; rfl

/-! ## After the first host stretch -/

theorem W1_v28 : (W1 m ρ c (Proc.devRef .tc main_v28) : S100000x128.Idx → EReal) = agg128 (sv m c) (dv m c) (m ((c : Thread nD τ).loc main_arg0) : S100000x128.Idx → EReal) :=
  Host.s0_v28 (W0 m ρ c)

theorem W1_v12 : (W1 m ρ c (Proc.devRef .tc main_v12) : S100000x1.Idx → EReal) = inv m c :=
  Host.s0_v12 (W0 m ρ c)

theorem W1_arg0 : (W1 m ρ c (Proc.devRef .tc main_arg0) : S100000x128.Idx → EReal) = (m ((c : Thread nD τ).loc main_arg0) : S100000x128.Idx → EReal) :=
  Host.s0_arg0 (W0 m ρ c)

theorem W1_v13 : (W1 m ρ c (Proc.devRef .tc main_v13) : S128x128.Idx → EReal) = tr128 (m ((c : Thread nD τ).loc main_arg2) : S128x128.Idx → EReal) :=
  Host.s0_v13 (W0 m ρ c)

theorem W1_v14 : (W1 m ρ c (Proc.devRef .tc main_v14) : S128x128.Idx → EReal) = tr128 (m ((c : Thread nD τ).loc main_arg3) : S128x128.Idx → EReal) :=
  Host.s0_v14 (W0 m ρ c)

theorem W1_v29 : (W1 m ρ c (Proc.devRef .tc main_v29) : S1x128.Idx → EReal) = row128 (m ((c : Thread nD τ).loc main_arg4) : S128.Idx → EReal) :=
  Host.s0_v29 (W0 m ρ c)

theorem W1_v1 : (W1 m ρ c (Proc.devRef .tc main_v1) : IVec S1600000 32) = sv m c :=
  Host.s0_v1 (W0 m ρ c)

theorem W1_v3 : (W1 m ρ c (Proc.devRef .tc main_v3) : IVec S1600000 32) = dv m c :=
  Host.s0_v3 (W0 m ρ c)

theorem W1_v15 : (W1 m ρ c (Proc.devRef .tc main_v15) : S128x128.Idx → EReal) = tr128 (m ((c : Thread nD τ).loc main_arg5) : S128x128.Idx → EReal) :=
  Host.s0_v15 (W0 m ρ c)

theorem W1_v16 : (W1 m ρ c (Proc.devRef .tc main_v16) : S128x128.Idx → EReal) = tr128 (m ((c : Thread nD τ).loc main_arg6) : S128x128.Idx → EReal) :=
  Host.s0_v16 (W0 m ρ c)

theorem W1_v17 : (W1 m ρ c (Proc.devRef .tc main_v17) : S128x64.Idx → EReal) = tr64 (m ((c : Thread nD τ).loc main_arg8) : S64x128.Idx → EReal) :=
  Host.s0_v17 (W0 m ρ c)

theorem W1_v18 : (W1 m ρ c (Proc.devRef .tc main_v18) : S128x64.Idx → EReal) = tr64 (m ((c : Thread nD τ).loc main_arg9) : S64x128.Idx → EReal) :=
  Host.s0_v18 (W0 m ρ c)

theorem W1_arg7 : (W1 m ρ c (Proc.devRef .tc main_arg7) : S128.Idx → EReal) = (m ((c : Thread nD τ).loc main_arg7) : S128.Idx → EReal) :=
  Host.s0_arg7 (W0 m ρ c)

theorem W1_arg10 : (W1 m ρ c (Proc.devRef .tc main_arg10) : S64.Idx → EReal) = (m ((c : Thread nD τ).loc main_arg10) : S64.Idx → EReal) :=
  Host.s0_arg10 (W0 m ρ c)

/-! ## After the first region -/

theorem W2_v30 : (W2 m ρ c (Proc.devRef .tc main_v30) : S100000x128.Idx → EReal) = h0 m c :=
  (W2_arr m ρ c 6).trans ((Region0.final_6 (V1 m ρ) c).trans
    (layerMul_congr (W1_v28 m ρ c) (W1_v12 m ρ c) (W1_arg0 m ρ c) (W1_v13 m ρ c) (W1_v14 m ρ c) (W1_v29 m ρ c)))

theorem W2_v12 : (W2 m ρ c (Proc.devRef .tc main_v12) : S100000x1.Idx → EReal) = inv m c :=
  (W2_arr m ρ c 1).trans ((((dat0 (V1 m ρ) c).arrAt_in 1 rfl _).trans (A_eq0 (V1 m ρ) c 1)).trans (W1_v12 m ρ c))

theorem W2_v1 : (W2 m ρ c (Proc.devRef .tc main_v1) : IVec S1600000 32) = sv m c :=
  (W2_of_ne m ρ c main_v1 (by decide)).trans (W1_v1 m ρ c)

theorem W2_v3 : (W2 m ρ c (Proc.devRef .tc main_v3) : IVec S1600000 32) = dv m c :=
  (W2_of_ne m ρ c main_v3 (by decide)).trans (W1_v3 m ρ c)

theorem W2_v15 : (W2 m ρ c (Proc.devRef .tc main_v15) : S128x128.Idx → EReal) = tr128 (m ((c : Thread nD τ).loc main_arg5) : S128x128.Idx → EReal) :=
  (W2_of_ne m ρ c main_v15 (by decide)).trans (W1_v15 m ρ c)

theorem W2_v16 : (W2 m ρ c (Proc.devRef .tc main_v16) : S128x128.Idx → EReal) = tr128 (m ((c : Thread nD τ).loc main_arg6) : S128x128.Idx → EReal) :=
  (W2_of_ne m ρ c main_v16 (by decide)).trans (W1_v16 m ρ c)

theorem W2_v17 : (W2 m ρ c (Proc.devRef .tc main_v17) : S128x64.Idx → EReal) = tr64 (m ((c : Thread nD τ).loc main_arg8) : S64x128.Idx → EReal) :=
  (W2_of_ne m ρ c main_v17 (by decide)).trans (W1_v17 m ρ c)

theorem W2_v18 : (W2 m ρ c (Proc.devRef .tc main_v18) : S128x64.Idx → EReal) = tr64 (m ((c : Thread nD τ).loc main_arg9) : S64x128.Idx → EReal) :=
  (W2_of_ne m ρ c main_v18 (by decide)).trans (W1_v18 m ρ c)

theorem W2_arg7 : (W2 m ρ c (Proc.devRef .tc main_arg7) : S128.Idx → EReal) = (m ((c : Thread nD τ).loc main_arg7) : S128.Idx → EReal) :=
  (W2_of_ne m ρ c main_arg7 (by decide)).trans (W1_arg7 m ρ c)

theorem W2_arg10 : (W2 m ρ c (Proc.devRef .tc main_arg10) : S64.Idx → EReal) = (m ((c : Thread nD τ).loc main_arg10) : S64.Idx → EReal) :=
  (W2_of_ne m ρ c main_arg10 (by decide)).trans (W1_arg10 m ρ c)

/-! ## After the second host stretch -/

theorem W3_v40 : (W3 m ρ c (Proc.devRef .tc main_v40) : S100000x128.Idx → EReal) = agg128 (sv m c) (dv m c) (h0 m c) :=
  (Host.s1_v40 (W2 m ρ c)).trans (by rw [W2_v1, W2_v3, W2_v30])

theorem W3_v41 : (W3 m ρ c (Proc.devRef .tc main_v41) : S1x128.Idx → EReal) = row128 (m ((c : Thread nD τ).loc main_arg7) : S128.Idx → EReal) :=
  (Host.s1_v41 (W2 m ρ c)).trans (by rw [W2_arg7])

theorem W3_v12 : (W3 m ρ c (Proc.devRef .tc main_v12) : S100000x1.Idx → EReal) = inv m c :=
  (Host.s1_v12 (W2 m ρ c)).trans (W2_v12 m ρ c)

theorem W3_v30 : (W3 m ρ c (Proc.devRef .tc main_v30) : S100000x128.Idx → EReal) = h0 m c :=
  (Host.s1_v30 (W2 m ρ c)).trans (W2_v30 m ρ c)

theorem W3_v15 : (W3 m ρ c (Proc.devRef .tc main_v15) : S128x128.Idx → EReal) = tr128 (m ((c : Thread nD τ).loc main_arg5) : S128x128.Idx → EReal) :=
  (Host.s1_v15 (W2 m ρ c)).trans (W2_v15 m ρ c)

theorem W3_v16 : (W3 m ρ c (Proc.devRef .tc main_v16) : S128x128.Idx → EReal) = tr128 (m ((c : Thread nD τ).loc main_arg6) : S128x128.Idx → EReal) :=
  (Host.s1_v16 (W2 m ρ c)).trans (W2_v16 m ρ c)

theorem W3_v17 : (W3 m ρ c (Proc.devRef .tc main_v17) : S128x64.Idx → EReal) = tr64 (m ((c : Thread nD τ).loc main_arg8) : S64x128.Idx → EReal) :=
  (Host.s1_v17 (W2 m ρ c)).trans (W2_v17 m ρ c)

theorem W3_v1 : (W3 m ρ c (Proc.devRef .tc main_v1) : IVec S1600000 32) = sv m c :=
  (Host.s1_v1 (W2 m ρ c)).trans (W2_v1 m ρ c)

theorem W3_v3 : (W3 m ρ c (Proc.devRef .tc main_v3) : IVec S1600000 32) = dv m c :=
  (Host.s1_v3 (W2 m ρ c)).trans (W2_v3 m ρ c)

theorem W3_v18 : (W3 m ρ c (Proc.devRef .tc main_v18) : S128x64.Idx → EReal) = tr64 (m ((c : Thread nD τ).loc main_arg9) : S64x128.Idx → EReal) :=
  (Host.s1_v18 (W2 m ρ c)).trans (W2_v18 m ρ c)

theorem W3_arg10 : (W3 m ρ c (Proc.devRef .tc main_arg10) : S64.Idx → EReal) = (m ((c : Thread nD τ).loc main_arg10) : S64.Idx → EReal) :=
  (Host.s1_arg10 (W2 m ρ c)).trans (W2_arg10 m ρ c)

/-! ## After the second region -/

theorem W4_v42_0 : (W4 m ρ c (Proc.devRef .tc main_v42_0) : S100000x128.Idx → EReal) = h1 m c :=
  (W4_arr m ρ c 7).trans ((Region1.final_7 (V3 m ρ) c).trans
    (layerMul_congr (W3_v40 m ρ c) (W3_v12 m ρ c) (W3_v30 m ρ c) (W3_v15 m ρ c) (W3_v16 m ρ c) (W3_v41 m ρ c)))

theorem W4_v42_1 : (W4 m ρ c (Proc.devRef .tc main_v42_1) : S100000x64.Idx → EReal) = yv m c :=
  (W4_arr m ρ c 8).trans ((Region1.final_8 (V3 m ρ) c).trans
    (proj_congr (layerMul_congr (W3_v40 m ρ c) (W3_v12 m ρ c) (W3_v30 m ρ c) (W3_v15 m ρ c) (W3_v16 m ρ c) (W3_v41 m ρ c)) (W3_v17 m ρ c)))

theorem W4_v12 : (W4 m ρ c (Proc.devRef .tc main_v12) : S100000x1.Idx → EReal) = inv m c :=
  (W4_arr m ρ c 1).trans ((((dat1 (V3 m ρ) c).arrAt_in 1 rfl _).trans (A_eq1 (V3 m ρ) c 1)).trans (W3_v12 m ρ c))

theorem W4_v1 : (W4 m ρ c (Proc.devRef .tc main_v1) : IVec S1600000 32) = sv m c :=
  (W4_of_ne m ρ c main_v1 (by decide)).trans (W3_v1 m ρ c)

theorem W4_v3 : (W4 m ρ c (Proc.devRef .tc main_v3) : IVec S1600000 32) = dv m c :=
  (W4_of_ne m ρ c main_v3 (by decide)).trans (W3_v3 m ρ c)

theorem W4_v18 : (W4 m ρ c (Proc.devRef .tc main_v18) : S128x64.Idx → EReal) = tr64 (m ((c : Thread nD τ).loc main_arg9) : S64x128.Idx → EReal) :=
  (W4_of_ne m ρ c main_v18 (by decide)).trans (W3_v18 m ρ c)

theorem W4_arg10 : (W4 m ρ c (Proc.devRef .tc main_arg10) : S64.Idx → EReal) = (m ((c : Thread nD τ).loc main_arg10) : S64.Idx → EReal) :=
  (W4_of_ne m ρ c main_arg10 (by decide)).trans (W3_arg10 m ρ c)

/-! ## After the third host stretch -/

theorem W5_v52 : (W5 m ρ c (Proc.devRef .tc main_v52) : S100000x64.Idx → EReal) = agg64 (sv m c) (dv m c) (yv m c) :=
  (Host.s2_v52 (W4 m ρ c)).trans (by rw [W4_v1, W4_v3, W4_v42_1])

theorem W5_v53 : (W5 m ρ c (Proc.devRef .tc main_v53) : S1x64.Idx → EReal) = row64 (m ((c : Thread nD τ).loc main_arg10) : S64.Idx → EReal) :=
  (Host.s2_v53 (W4 m ρ c)).trans (by rw [W4_arg10])

theorem W5_v12 : (W5 m ρ c (Proc.devRef .tc main_v12) : S100000x1.Idx → EReal) = inv m c :=
  (Host.s2_v12 (W4 m ρ c)).trans (W4_v12 m ρ c)

theorem W5_v42_0 : (W5 m ρ c (Proc.devRef .tc main_v42_0) : S100000x128.Idx → EReal) = h1 m c :=
  (Host.s2_v42_0 (W4 m ρ c)).trans (W4_v42_0 m ρ c)

theorem W5_v18 : (W5 m ρ c (Proc.devRef .tc main_v18) : S128x64.Idx → EReal) = tr64 (m ((c : Thread nD τ).loc main_arg9) : S64x128.Idx → EReal) :=
  (Host.s2_v18 (W4 m ρ c)).trans (W4_v18 m ρ c)

/-! ## After the third region: the result -/

theorem W6_v54 : (W6 m ρ c (Proc.devRef .tc main_v54) : S100000x64.Idx → EReal) = outv m c :=
  (W6_arr m ρ c 5).trans ((Region2.final_5 (V5 m ρ) c).trans
    (lastMul_congr (W5_v52 m ρ c) (W5_v12 m ρ c) (W5_v42_0 m ρ c) (W5_v18 m ρ c) (W5_v53 m ρ c)))

end Cert.KernelIdeal.Whole

end
-- ==== Proof.LibRowScatter.lean ====
/-
  SCATTER-ADD OF ROWS THROUGH AN INDEX COLUMN. A table of `N` rows of `D` entries, shape `[N, D]`; scatter indices of
  shape `[E, 1]`, one row number per update row, the index vector along axis 1; updates of shape `[E, D]`. Update row
  `e` is aimed, entry by entry, at the table row its scatter index names: the updates' axis 1 is the window axis and
  goes to the table's axis 1, the table's axis 0 is the inserted axis the scatter index addresses.

  This file gives the dimension numbers of that scatter, general in the extents `N`, `E` and `D`, and proves
  `resultIdx_row`: the update at `(e, d')` lands on the table entry `(n, d)` exactly when the scatter index `idx[e, 0]`,
  read as a signed integer and NOT clamped, equals `n`, and `d' = d` (an index outside `[0, N)` lands nowhere). On the
  table's axis 0 the start is the scatter index and the window coordinate is `0`; on axis 1 the start is `0` and the
  window coordinate is `d'`, always inside the axis.
-/
import Idealize.ShloMosaic.Lib.ValueIdx

noncomputable section

open scoped BigOperators
open Idealize.ShloMosaic Idealize.ShloMosaic.ValueIdx

namespace Cert.Lib.RowScatter

/-! ## Where an update of the row scatter lands

A table of `N` rows of `D` entries, scatter indices `[E, 1]` (one row number per update row), updates `[E, D]`: update
row `e` is added, entry by entry, to the table row its scatter index names. -/

/-- Scatter into a table `[N, D]` at scatter indices `[E, 1]` of updates `[E, D]`: operand axis 0 is an inserted
    window axis and the target of the scatter index's one component; the updates' axis 1 is a window axis going to
    operand axis 1. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row scatter's start on operand axis 0 for update `(e, d')`: the scatter index `idx[e, 0]`, read signed. -/
theorem rowScatter_start_zero {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter's start on operand axis 1 is `0`: the scatter index has no component for it. -/
theorem rowScatter_start_one {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 1 = 0 := by
  unfold ScatterDims.start
  rw [dif_neg (fun h => absurd (congrArg Fin.val (List.mem_singleton.mp h)) Nat.one_ne_zero)]

/-- The row scatter's window coordinate on operand axis 0 is `0`: that axis is an inserted one. -/
theorem rowScatter_window_zero {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 0 = 0 := by
  unfold ScatterDims.window
  rw [dif_neg (by simp [ScatterDims.sKept, Shape.kept])]

/-- The row scatter's window coordinate on operand axis 1 is the update's coordinate on its axis 1. -/
theorem rowScatter_window_one {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 1 = d'.val := by
  unfold ScatterDims.window
  split
  · rfl
  · next h => exact absurd (by simp [ScatterDims.sKept, Shape.kept]) h

/-- WHERE THE ROW SCATTER'S UPDATE `(e, d')` LANDS: on `(n, d)` exactly when the scatter index `idx[e, 0]`, read
    signed, is `n` and `d' = d`. On axis 1 the start is `0` and the window coordinate `d'` is inside the axis. -/
theorem resultIdx_row {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (rowScatter N E D wf).resultIdx? (ix2 e d') idx = some (ix2 n d)
      ↔ ((idx (ix2 e 0)).toInt = (n.val : Int) ∧ d' = d) := by
  have hs0 := rowScatter_start_zero wf idx e d'
  have hs1 := rowScatter_start_one wf idx e d'
  have hw0 := rowScatter_window_zero wf e d'
  have hw1 := rowScatter_window_one wf e d'
  have hn := n.isLt
  have hd' := d'.isLt
  unfold ScatterDims.resultIdx?
  split
  · next h =>
    have h0 : 0 ≤ (rowScatter N E D wf).start (ix2 e d') idx 0 + ((rowScatter N E D wf).window (ix2 e d') 0 : Nat)
        ∧ (rowScatter N E D wf).start (ix2 e d') idx 0 + ((rowScatter N E D wf).window (ix2 e d') 0 : Nat) < (N : Int) := h 0
    rw [hs0, hw0] at h0
    constructor
    · intro hf
      have h1 : ((rowScatter N E D wf).start (ix2 e d') idx 0 + ((rowScatter N E D wf).window (ix2 e d') 0 : Nat)).toNat = n.val :=
        congrArg (fun f => (f 0).val) (Option.some.inj hf)
      have h2 : ((rowScatter N E D wf).start (ix2 e d') idx 1 + ((rowScatter N E D wf).window (ix2 e d') 1 : Nat)).toNat = d.val :=
        congrArg (fun f => (f 1).val) (Option.some.inj hf)
      rw [hs0, hw0] at h1
      rw [hs1, hw1] at h2
      refine ⟨by omega, Fin.ext (by omega)⟩
    · rintro ⟨hv, rfl⟩
      congr 1
      funext a
      refine Fin.ext ?_
      match a with
      | ⟨0, _⟩ =>
        show ((rowScatter N E D wf).start (ix2 e d') idx 0 + ((rowScatter N E D wf).window (ix2 e d') 0 : Nat)).toNat = n.val
        rw [hs0, hw0, hv]
        omega
      | ⟨1, _⟩ =>
        show ((rowScatter N E D wf).start (ix2 e d') idx 1 + ((rowScatter N E D wf).window (ix2 e d') 1 : Nat)).toNat = d'.val
        rw [hs1, hw1]
        omega
  · next h =>
    constructor
    · intro hf
      exact absurd hf (by simp)
    · rintro ⟨hv, rfl⟩
      refine absurd (fun a => ?_) h
      match a with
      | ⟨0, _⟩ =>
        show 0 ≤ (rowScatter N E D wf).start (ix2 e d') idx 0 + ((rowScatter N E D wf).window (ix2 e d') 0 : Nat)
          ∧ (rowScatter N E D wf).start (ix2 e d') idx 0 + ((rowScatter N E D wf).window (ix2 e d') 0 : Nat) < (N : Int)
        rw [hs0, hw0, hv]
        omega
      | ⟨1, _⟩ =>
        show 0 ≤ (rowScatter N E D wf).start (ix2 e d') idx 1 + ((rowScatter N E D wf).window (ix2 e d') 1 : Nat)
          ∧ (rowScatter N E D wf).start (ix2 e d') idx 1 + ((rowScatter N E D wf).window (ix2 e d') 1 : Nat) < ((D : Nat) : Int)
        rw [hs1, hw1]
        omega

end Cert.Lib.RowScatter

end
-- ==== Proof.LibRowGather.lean ====
/-
  A general lemma about `stablehlo.gather`: rows of a table taken at a column of start indices.

  For a table `x : [N, D]` and a column `idx : [E, 1]` of integer start indices, the gather with offset_dims `[1]`,
  collapsed_slice_dims `[0]`, start_index_map `[0]`, index_vector_dim `1` and slice_sizes `[1, D]` — what `take(x, idx, axis = 0)`
  of a two-dimensional table lowers to — has result `[E, D]`, and its entry `(e, d)` is the table's entry `(i, d)`, where `i` is
  the start index `idx (e, 0)` read as a signed integer and clamped into `[0, N - 1]`: a whole row of the table per start index.
-/
import Idealize.ShloMosaic.Lib.ValueIdx

noncomputable section

namespace Idealize.ShloMosaic.RowGather

open Idealize.ShloMosaic Idealize.ShloMosaic.ValueIdx

variable {α : Type}

/-- Those dimension numbers for a table `[N, D]`, start indices `[E, 1]` and result `[E, D]`; their conditions `wf` are
    decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, d)`: the table at row `idx (e, 0)`, read signed and clamped into `[0, N - 1]`, and column `d`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N E D wf) x idx (ix2 e d)
      = x (ix2 ⟨min (idx (ix2 e (0 : Fin 1))).toInt.toNat (N - 1), by omega⟩ d) := by
  unfold Host.gather
  congr 1
  funext a
  refine Fin.ext ?_
  show (rowDims N E D wf).start (ix2 e d) idx a + (rowDims N E D wf).batchCoord (ix2 e d) a
    + (rowDims N E D wf).offCoord (ix2 e d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N E D wf).startIndexMap from List.mem_singleton.mpr rfl)]
    have hsi : (rowDims N E D wf).siIdx (ix2 e d) ⟨List.idxOf (⟨0, by omega⟩ : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h1 : (⟨1, by omega⟩ : Fin 2) ∉ (rowDims N E D wf).startIndexMap :=
      fun h => Nat.one_ne_zero (congrArg Fin.val (List.mem_singleton.mp h))
    have hs : (rowDims N E D wf).start (ix2 e d) idx ⟨1, by omega⟩ = 0 := by
      unfold GatherDims.start; rw [dif_neg h1]
    rw [hs]
    have hk : (⟨1, by omega⟩ : Fin 2) ∈ (rowDims N E D wf).sKept :=
      (GatherDims.mem_sKept _ _).mpr
        ⟨fun h => Nat.one_ne_zero (congrArg Fin.val (List.mem_singleton.mp h)), List.not_mem_nil⟩
    unfold GatherDims.offCoord
    rw [dif_pos hk]
    simp only [Nat.zero_add]
    rfl

end Idealize.ShloMosaic.RowGather

end
-- ==== Proof.LibRowAggregate.lean ====
/-
  ROWS OF A TABLE ADDED TO AND READ THROUGH A COLUMN OF ROW NUMBERS, AT THE IDEAL INSTANCE.

  A table has `N` rows of `D` entries, shape `[N, D]`. A column `idx` of shape `[E, 1]` holds one integer per update
  (or result) row, of any bit width `w`, read as a SIGNED integer.

  * SCATTER-ADD (`scatterAdd_row_apply`). Updates of shape `[E, D]`; update row `e` is added, entry by entry, to the
    table row that `idx[e, 0]` names. The row number is NOT clamped: an update whose row number lies outside `[0, N)`
    is dropped. At the ideal instance floats are extended reals and the accumulation is the exact sum, so the result
    at `(n, d)` is the table's entry plus the sum of `upd[e, d]` over the update rows `e` whose row number is `n`
    (`landing idx n`) -- in whatever order the colliding updates are met, since the sum of extended reals over a
    finite set does not depend on an order.

  * GATHER (`gather_row_apply'`). The result `[E, D]` has, at `(e, d)`, the table's entry at row `srcRow idx e` and
    column `d`, where `srcRow idx e` is `idx[e, 0]` read signed and CLAMPED into `[0, N - 1]` (a negative row number
    reads row `0`, one past the end reads row `N - 1`). This holds for entries of any type.

  The asymmetry between the two (dropped against clamped) is that of the two operations themselves: a scatter ignores
  an update whose window falls outside the operand, a gather moves an out-of-bounds window back inside the operand.

  Both statements take the dimension numbers as a record `sd` / `gd` together with an equation saying that it is the
  row scatter / row gather of the two companion files; for a record whose fields are those literal lists the equation
  holds by `rfl`.
-/
import Idealize.ShloMosaic.Lib.ValueIdx
import Idealize.ShloMosaic.PureOps.Ideal
import proofs.«131813_j86199993631208_2_alg».proof.Proof.LibRowScatter
import proofs.«131813_j86199993631208_2_alg».proof.Proof.LibRowGather

noncomputable section

open scoped BigOperators
open Idealize.ShloMosaic Idealize.ShloMosaic.ValueIdx

namespace Cert.Lib.RowAggregate

/-- the table row that entry e of an index column names: read signed, clamped into [0, N − 1] -/
def srcRow {N E w : ℕ} (hN : 0 < N) (idx : IVec ⟨2, ![E, 1]⟩ w) (e : Fin E) : Fin N :=
  ⟨min (idx (ix2 e (0 : Fin 1))).toInt.toNat (N - 1), by omega⟩

/-- the update rows aimed at table row n: the index read signed and NOT clamped equals n -/
def landing {N E w : ℕ} (idx : IVec ⟨2, ![E, 1]⟩ w) (n : Fin N) : Finset (Fin E) :=
  Finset.univ.filter fun e => (idx (ix2 e (0 : Fin 1))).toInt = (n.val : Int)

/-- Membership in `landing`: update row `e` is aimed at table row `n` exactly when its row number, read signed, is `n`. -/
theorem mem_landing {N E w : ℕ} (idx : IVec ⟨2, ![E, 1]⟩ w) (n : Fin N) (e : Fin E) :
    e ∈ landing idx n ↔ (idx (ix2 e (0 : Fin 1))).toInt = (n.val : Int) := by
  unfold landing
  rw [Finset.mem_filter]
  exact ⟨fun h => h.2, fun h => ⟨Finset.mem_univ _, h⟩⟩

/-- THE SCATTER-ADD OF ROWS READ AT `(n, d)`: the table's entry plus the sum, over the update rows `e` whose row number
    is `n`, of `upd[e, d]`. The update indices `(e, d')` that land on `(n, d)` are exactly those with `e` aimed at `n`
    and `d' = d`, so `(e, d') ↦ e` and `e ↦ (e, d)` are inverse bijections between them and `landing idx n`, and the
    summands correspond. -/
theorem scatterAdd_row_apply {N E D w : ℕ} {φ : FTy} (sd : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1) (hsd : sd = Cert.Lib.RowScatter.rowScatter N E D wf)
    (x : FVec Ideal ⟨2, ![N, D]⟩ φ) (idx : IVec ⟨2, ![E, 1]⟩ w) (upd : FVec Ideal ⟨2, ![E, D]⟩ φ) (n : Fin N) (d : Fin D) :
    Host.scatterAdd (F := Ideal) sd x idx upd (ix2 n d) = x (ix2 n d) + ∑ e ∈ landing idx n, upd (ix2 e d) := by
  subst hsd
  show Ideal.hostScatterAdd (Cert.Lib.RowScatter.rowScatter N E D wf) x idx upd (ix2 n d) = _
  unfold Ideal.hostScatterAdd
  congr 1
  -- an update index that lands on `(n, d)`, in coordinates: its row is aimed at `n` and its column is `d`
  have key : ∀ j : (⟨2, ![E, D]⟩ : Shape).Idx,
      j ∈ Finset.univ.filter (fun j => (Cert.Lib.RowScatter.rowScatter N E D wf).resultIdx? j idx = some (ix2 n d)) →
      ∃ e : Fin E, j = ix2 e d ∧ e ∈ landing idx n := by
    intro j hj
    obtain ⟨e, d', rfl⟩ : ∃ (e : Fin E) (d' : Fin D), j = ix2 e d' := ⟨j 0, j 1, eq_ix2 j⟩
    obtain ⟨he, rfl⟩ := (Cert.Lib.RowScatter.resultIdx_row wf idx e d' n d).mp (Finset.mem_filter.mp hj).2
    exact ⟨e, rfl, (mem_landing idx n e).mpr he⟩
  refine Finset.sum_nbij' (fun j => (j 0 : Fin E)) (fun e => ix2 e d) ?_ ?_ ?_ ?_ ?_
  · intro j hj
    obtain ⟨e, rfl, he⟩ := key j hj
    exact he
  · intro e he
    exact Finset.mem_filter.mpr ⟨Finset.mem_univ _,
      (Cert.Lib.RowScatter.resultIdx_row wf idx e d n d).mpr ⟨(mem_landing idx n e).mp he, rfl⟩⟩
  · intro j hj
    obtain ⟨e, rfl, _⟩ := key j hj
    rfl
  · intro e _
    rfl
  · intro j hj
    obtain ⟨e, rfl, _⟩ := key j hj
    rfl

/-- THE GATHER OF ROWS READ AT `(e, d)`: the table at row `srcRow idx e` (the row number `idx[e, 0]` read signed and
    clamped into `[0, N - 1]`) and column `d`. -/
theorem gather_row_apply' {N E D w : ℕ} {α : Type} (hN : 0 < N) (gd : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D]) (hgd : gd = Idealize.ShloMosaic.RowGather.rowDims N E D wf)
    (x : (⟨2, ![N, D]⟩ : Shape).Idx → α) (idx : IVec ⟨2, ![E, 1]⟩ w) (e : Fin E) (d : Fin D) :
    Host.gather gd x idx (ix2 e d) = x (ix2 (srcRow hN idx e) d) := by
  subst hgd
  exact Idealize.ShloMosaic.RowGather.gather_row_apply hN wf x idx e d

/-! ## The one-dimensional cousin: entries of a vector read through a column of positions

A vector `x : [N]`, a column `idx : [E, 1]` of positions, result `[E]`: entry `e` of the result is the vector at position
`idx[e, 0]`, read signed and clamped into `[0, N - 1]` (the same `srcRow`, the vector being a table of `N` rows with no
column axis). In particular every entry of the result is SOME entry of the vector, and for that alone nothing about
the dimension numbers is needed. -/

/-- Every entry a gather of a vector `[N]` through an index column `[E, 1]` returns is some entry of the vector, whatever
    the dimension numbers: the gather reads the vector at a computed position, and a position of a vector is its one
    coordinate. -/
theorem gather_vec_mem {N E w : ℕ} {α : Type} (gd : GatherDims ⟨1, ![N]⟩ ⟨2, ![E, 1]⟩ ⟨1, ![E]⟩)
    (x : (⟨1, ![N]⟩ : Shape).Idx → α) (idx : IVec ⟨2, ![E, 1]⟩ w) (e : Fin E) :
    ∃ n : Fin N, Host.gather gd x idx (ix1 e) = x (ix1 n) :=
  ⟨gd.operandIdx (ix1 e) idx 0, congrArg x (eq_ix1 (gd.operandIdx (ix1 e) idx))⟩

/-- The dimension numbers of the gather of single entries of a vector `[N]` at a column `[E, 1]` of positions, result
    `[E]`: no offset axis, the vector's one axis collapsed and addressed by the position's one component, the index
    vector along axis 1, slices of one entry. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES OF A VECTOR READ AT `e`: the vector at position `srcRow idx e` (`idx[e, 0]` read signed and
    clamped into `[0, N - 1]`). On the vector's one axis the batching and the offset coordinates are `0` (it is a
    collapsed axis), and the start is the position clamped so that a slice of one entry fits. -/
theorem gather_vec_apply {N E w : ℕ} {α : Type} (hN : 0 < N) (gd : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hgd : gd = vecDims N E wf)
    (x : (⟨1, ![N]⟩ : Shape).Idx → α) (idx : IVec ⟨2, ![E, 1]⟩ w) (e : Fin E) :
    Host.gather gd x idx (ix1 e) = x (ix1 (srcRow hN idx e)) := by
  subst hgd
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowAggregate

end
-- ==== Proof.RefValue.lean ====
/-
  THE REFERENCE PROGRAM'S RESULT AS A WHOLE-ARRAY FUNCTION OF ITS ARGUMENTS.

  The reference computes three mean-aggregation graph-convolution layers. In each layer the rows of the layer's input
  are read through the column of source nodes (a gather of rows), added into a zero table through the column of
  destination nodes (a scatter-add of rows), and divided by the degree column (the number of edges landing on a node,
  or one if there is none); the result is multiplied by one weight matrix, the layer's input by another, the bias is
  added, and after the first two layers the positive part is taken.

  Read entry by entry this is: at node p and channel k the scatter-add of the gathered rows is
        0 + sum over the edges e landing on p of h(src e, k),
  the neighbour sum of h, where "e lands on p" means that the destination column's entry e, read as a signed integer,
  is p, and src e is the source column's entry e clamped into the table. So every layer is the layer function
  `layerDiv` of the neighbour sum of its input, and the program's result is the three-layer function `refNet` of the
  arguments. The three layers recompute the two index columns and the degree column by the same operations of the
  same argument, so these are the same arrays in every layer.
-/
import proofs.«131813_j86199993631208_2_alg».proof.Proof.Gen.ReferenceIdeal.Read
import proofs.«131813_j86199993631208_2_alg».proof.Proof.LibFusedSageNet
import proofs.«131813_j86199993631208_2_alg».proof.Proof.LibRowAggregate
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx
  Idealize.ShloMosaic.StableHlo Idealize.ShloMosaic.TcCoe Idealize.SL.Sem

/-! ## The degree column -/

/-- The degree column at node p: the larger of the accumulated count of edges landing on p and one. -/
theorem dcol_apply (x1 : (⟨S2x1600000, .i32⟩ : BufTy).Contents (Elt Ideal)) (p : Fin 100000) :
    Read.val_main_v20 (F := Ideal) x1 (ix2 p (0 : Fin 1)) = max (Read.val_main_v17 (F := Ideal) x1 (ix1 p)) 1 := by
  have e : Read.idx_main_v20 (ix2 p (0 : Fin 1)) = ix1 p := funext fun a => Fin.ext (by match a with | ⟨0, _⟩ => rfl)
  rw [Read.val_main_v20_apply, e, Read.val_main_v19_apply, Read.val_main_v18_apply, Read.val_main_cst_3_apply,
    Ideal.maximumf_def, Ideal.ofBits_def, Ideal.ofBits_one_f32]

/-- The degree column is nowhere zero: it is at least one. -/
theorem dcol_ne_zero (x1 : (⟨S2x1600000, .i32⟩ : BufTy).Contents (Elt Ideal)) (p : Fin 100000) :
    Read.val_main_v20 (F := Ideal) x1 (ix2 p (0 : Fin 1)) ≠ 0 := by
  rw [dcol_apply]
  exact ne_of_gt (lt_of_lt_of_le zero_lt_one (le_max_right _ _))

/-! ## The index columns and the degree column of the later layers are those of the first -/

theorem srcCol1_eq (x1 : (⟨S2x1600000, .i32⟩ : BufTy).Contents (Elt Ideal)) : Read.val_main_v37 (F := Ideal) x1 = Read.val_main_v9 (F := Ideal) x1 := rfl
theorem srcCol2_eq (x1 : (⟨S2x1600000, .i32⟩ : BufTy).Contents (Elt Ideal)) : Read.val_main_v65 (F := Ideal) x1 = Read.val_main_v9 (F := Ideal) x1 := rfl
theorem dstCol1_eq (x1 : (⟨S2x1600000, .i32⟩ : BufTy).Contents (Elt Ideal)) : Read.val_main_v40 (F := Ideal) x1 = Read.val_main_v12 (F := Ideal) x1 := rfl
theorem dstCol2_eq (x1 : (⟨S2x1600000, .i32⟩ : BufTy).Contents (Elt Ideal)) : Read.val_main_v68 (F := Ideal) x1 = Read.val_main_v12 (F := Ideal) x1 := rfl
theorem dcol1_eq (x1 : (⟨S2x1600000, .i32⟩ : BufTy).Contents (Elt Ideal)) : Read.val_main_v48 (F := Ideal) x1 = Read.val_main_v20 (F := Ideal) x1 := rfl
theorem dcol2_eq (x1 : (⟨S2x1600000, .i32⟩ : BufTy).Contents (Elt Ideal)) : Read.val_main_v76 (F := Ideal) x1 = Read.val_main_v20 (F := Ideal) x1 := rfl

/-! ## Gathering rows along the edges and adding them at their destinations is the neighbour sum -/

/-- The scatter-add, into a zero table, of the rows of h gathered through the source column, read at (p, k): the
    neighbour sum of h. -/
theorem agg_apply (z h : (⟨S100000x128, .f32⟩ : BufTy).Contents (Elt Ideal))
    (idxD idxS : (⟨S1600000x1, .i32⟩ : BufTy).Contents (Elt Ideal)) (hz : ∀ i, z i = 0) (p : Fin 100000) (k : Fin 128) :
    Host.scatterAdd (F := Ideal) (φ := .f32) scatter_S100000x128_S1600000x1_S1600000x128_1_0_0_1 z idxD
        (Host.gather gather_S100000x128_S1600000x1_S1600000x128_1_0_n_n_0_1_1128 h idxS) (ix2 p k)
      = Cert.GNet.nbrSum (Cert.Lib.RowAggregate.landing (N := 100000) idxD)
          (Cert.Lib.RowAggregate.srcRow (N := 100000) (by decide) idxS) h (ix2 p k) := by
  rw [Cert.Lib.RowAggregate.scatterAdd_row_apply scatter_S100000x128_S1600000x1_S1600000x128_1_0_0_1
      Facts₀.scatter_S100000x128_S1600000x1_S1600000x128_1_0_0_1_wf rfl, hz, Cert.GNet.nbrSum_apply]
  refine congrArg (fun s => (0 : EReal) + s) (Finset.sum_congr rfl fun e _ => ?_)
  exact Cert.Lib.RowAggregate.gather_row_apply' (by decide) gather_S100000x128_S1600000x1_S1600000x128_1_0_n_n_0_1_1128
    Facts₀.gather_S100000x128_S1600000x1_S1600000x128_1_0_n_n_0_1_1128_wf rfl h idxS e k

/-! ## The mean of the neighbours, layer by layer -/

theorem mean0_apply (x0 : (⟨S100000x128, .f32⟩ : BufTy).Contents (Elt Ideal)) (x1 : (⟨S2x1600000, .i32⟩ : BufTy).Contents (Elt Ideal)) (p : Fin 100000) (k : Fin 128) :
    Read.val_main_v22 (F := Ideal) x0 x1 (ix2 p k)
      = Ideal.div (Cert.GNet.nbrSum (Cert.Lib.RowAggregate.landing (N := 100000) (Read.val_main_v12 (F := Ideal) x1)) (Cert.Lib.RowAggregate.srcRow (N := 100000) (by decide) (Read.val_main_v9 (F := Ideal) x1)) x0 (ix2 p k)) ((Read.val_main_v20 (F := Ideal) x1) (ix2 p (0 : Fin 1))) := by
  have e : Read.idx_main_v21 (ix2 p k) = ix2 p (0 : Fin 1) := funext fun a => Fin.ext (by match a with | ⟨0, _⟩ => rfl | ⟨1, _⟩ => rfl)
  rw [Read.val_main_v22_apply, Read.val_main_v21_apply, e, Ideal.hostDivf_def]
  unfold Read.val_main_v13 Read.val_main_v10
  rw [agg_apply (Read.val_main_v11 (F := Ideal)) _ _ _ (fun i => by rw [Read.val_main_v11_apply, Read.val_main_cst_apply, Ideal.ofBits_def, Ideal.ofBits_zero_f32])]

theorem mean1_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (p : Fin 100000) (k : Fin 128) :
    Read.val_main_v50 (F := Ideal) x0 x1 x2 x3 x4 (ix2 p k)
      = Ideal.div (Cert.GNet.nbrSum (Cert.Lib.RowAggregate.landing (N := 100000) (Read.val_main_v12 (F := Ideal) x1)) (Cert.Lib.RowAggregate.srcRow (N := 100000) (by decide) (Read.val_main_v9 (F := Ideal) x1)) (Read.val_main_v31 (F := Ideal) x0 x1 x2 x3 x4) (ix2 p k)) ((Read.val_main_v20 (F := Ideal) x1) (ix2 p (0 : Fin 1))) := by
  have e : Read.idx_main_v49 (ix2 p k) = ix2 p (0 : Fin 1) := funext fun a => Fin.ext (by match a with | ⟨0, _⟩ => rfl | ⟨1, _⟩ => rfl)
  rw [Read.val_main_v50_apply, Read.val_main_v49_apply, e, Ideal.hostDivf_def, dcol1_eq]
  unfold Read.val_main_v41 Read.val_main_v38
  rw [agg_apply (Read.val_main_v39 (F := Ideal)) _ _ _ (fun i => by rw [Read.val_main_v39_apply, Read.val_main_cst_6_apply, Ideal.ofBits_def, Ideal.ofBits_zero_f32]), dstCol1_eq, srcCol1_eq]

theorem mean2_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (p : Fin 100000) (k : Fin 128) :
    Read.val_main_v78 (F := Ideal) x0 x1 x2 x3 x4 x5 x6 x7 (ix2 p k)
      = Ideal.div (Cert.GNet.nbrSum (Cert.Lib.RowAggregate.landing (N := 100000) (Read.val_main_v12 (F := Ideal) x1)) (Cert.Lib.RowAggregate.srcRow (N := 100000) (by decide) (Read.val_main_v9 (F := Ideal) x1)) (Read.val_main_v59 (F := Ideal) x0 x1 x2 x3 x4 x5 x6 x7) (ix2 p k)) ((Read.val_main_v20 (F := Ideal) x1) (ix2 p (0 : Fin 1))) := by
  have e : Read.idx_main_v77 (ix2 p k) = ix2 p (0 : Fin 1) := funext fun a => Fin.ext (by match a with | ⟨0, _⟩ => rfl | ⟨1, _⟩ => rfl)
  rw [Read.val_main_v78_apply, Read.val_main_v77_apply, e, Ideal.hostDivf_def, dcol2_eq]
  unfold Read.val_main_v69 Read.val_main_v66
  rw [agg_apply (Read.val_main_v67 (F := Ideal)) _ _ _ (fun i => by rw [Read.val_main_v67_apply, Read.val_main_cst_12_apply, Ideal.ofBits_def, Ideal.ofBits_zero_f32]), dstCol2_eq, srcCol2_eq]

/-! ## The three layers -/

/-- The first layer, with the positive part. -/
theorem layer0_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) :
    Read.val_main_v31 (F := Ideal) x0 x1 x2 x3 x4
      = Cert.Net.layerDiv true (Cert.GNet.nbrSum (Cert.Lib.RowAggregate.landing (N := 100000) (Read.val_main_v12 (F := Ideal) x1)) (Cert.Lib.RowAggregate.srcRow (N := 100000) (by decide) (Read.val_main_v9 (F := Ideal) x1)) x0) (Read.val_main_v20 (F := Ideal) x1) x0
          (Read.val_main_v23 (F := Ideal) x2) (Read.val_main_v25 (F := Ideal) x3) x4 := by
  funext i
  obtain ⟨p, n, rfl⟩ : ∃ (p : Fin 100000) (n : Fin 128), i = ix2 p n := ⟨i 0, i 1, eq_ix2 i⟩
  have el : ∀ k : Fin 128, Read.lidx_main_v24 (ix2 p n) k = ix2 p k := fun k => funext fun a => Fin.ext (by match a with | ⟨0, _⟩ => rfl | ⟨1, _⟩ => rfl)
  have er : ∀ k : Fin 128, Read.ridx_main_v24 (ix2 p n) k = ix2 k n := fun k => funext fun a => Fin.ext (by match a with | ⟨0, _⟩ => rfl | ⟨1, _⟩ => rfl)
  have el' : ∀ k : Fin 128, Read.lidx_main_v26 (ix2 p n) k = ix2 p k := fun k => funext fun a => Fin.ext (by match a with | ⟨0, _⟩ => rfl | ⟨1, _⟩ => rfl)
  have er' : ∀ k : Fin 128, Read.ridx_main_v26 (ix2 p n) k = ix2 k n := fun k => funext fun a => Fin.ext (by match a with | ⟨0, _⟩ => rfl | ⟨1, _⟩ => rfl)
  have eb : Read.idx_main_v28 (Read.idx_main_v29 (ix2 p n)) = ix1 n := funext fun a => Fin.ext (by match a with | ⟨0, _⟩ => rfl)
  rw [Cert.Net.layerDiv_apply, Read.val_main_v31_apply, Read.val_main_v30_apply, Read.val_main_v27_apply,
    Read.val_main_v24_apply, Read.val_main_v26_apply, Read.val_main_v29_apply, Read.val_main_v28_apply, eb,
    Read.val_main_call0_v0_apply, Read.val_main_call0_cst_apply, Ideal.maximumf_def, Ideal.addf_def, Ideal.addf_def,
    Ideal.ofBits_def, Ideal.ofBits_zero_f32]
  simp only [el, er, el', er', mean0_apply]
  unfold Cert.Net.act
  exact (if_pos rfl).symm

/-- The second layer, with the positive part. -/
theorem layer1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    Read.val_main_v59 (F := Ideal) x0 x1 x2 x3 x4 x5 x6 x7
      = Cert.Net.layerDiv true (Cert.GNet.nbrSum (Cert.Lib.RowAggregate.landing (N := 100000) (Read.val_main_v12 (F := Ideal) x1)) (Cert.Lib.RowAggregate.srcRow (N := 100000) (by decide) (Read.val_main_v9 (F := Ideal) x1)) (Read.val_main_v31 (F := Ideal) x0 x1 x2 x3 x4)) (Read.val_main_v20 (F := Ideal) x1) (Read.val_main_v31 (F := Ideal) x0 x1 x2 x3 x4)
          (Read.val_main_v51 (F := Ideal) x5) (Read.val_main_v53 (F := Ideal) x6) x7 := by
  funext i
  obtain ⟨p, n, rfl⟩ : ∃ (p : Fin 100000) (n : Fin 128), i = ix2 p n := ⟨i 0, i 1, eq_ix2 i⟩
  have el : ∀ k : Fin 128, Read.lidx_main_v52 (ix2 p n) k = ix2 p k := fun k => funext fun a => Fin.ext (by match a with | ⟨0, _⟩ => rfl | ⟨1, _⟩ => rfl)
  have er : ∀ k : Fin 128, Read.ridx_main_v52 (ix2 p n) k = ix2 k n := fun k => funext fun a => Fin.ext (by match a with | ⟨0, _⟩ => rfl | ⟨1, _⟩ => rfl)
  have el' : ∀ k : Fin 128, Read.lidx_main_v54 (ix2 p n) k = ix2 p k := fun k => funext fun a => Fin.ext (by match a with | ⟨0, _⟩ => rfl | ⟨1, _⟩ => rfl)
  have er' : ∀ k : Fin 128, Read.ridx_main_v54 (ix2 p n) k = ix2 k n := fun k => funext fun a => Fin.ext (by match a with | ⟨0, _⟩ => rfl | ⟨1, _⟩ => rfl)
  have eb : Read.idx_main_v56 (Read.idx_main_v57 (ix2 p n)) = ix1 n := funext fun a => Fin.ext (by match a with | ⟨0, _⟩ => rfl)
  rw [Cert.Net.layerDiv_apply, Read.val_main_v59_apply, Read.val_main_v58_apply, Read.val_main_v55_apply,
    Read.val_main_v52_apply, Read.val_main_v54_apply, Read.val_main_v57_apply, Read.val_main_v56_apply, eb,
    Read.val_main_call1_v0_apply, Read.val_main_call1_cst_apply, Ideal.maximumf_def, Ideal.addf_def, Ideal.addf_def,
    Ideal.ofBits_def, Ideal.ofBits_zero_f32]
  simp only [el, er, el', er', mean1_apply]
  unfold Cert.Net.act
  exact (if_pos rfl).symm

/-- The last layer: 64 output channels, no activation. -/
theorem layer2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64x128, .f32⟩ : BufTy).Contents (Elt Ideal)) (x10 : (⟨S64, .f32⟩ : BufTy).Contents (Elt Ideal)) :
    Read.val_main_v86 (F := Ideal) x0 x1 x2 x3 x4 x5 x6 x7 x8 x9 x10
      = Cert.Net.layerDiv false (Cert.GNet.nbrSum (Cert.Lib.RowAggregate.landing (N := 100000) (Read.val_main_v12 (F := Ideal) x1)) (Cert.Lib.RowAggregate.srcRow (N := 100000) (by decide) (Read.val_main_v9 (F := Ideal) x1)) (Read.val_main_v59 (F := Ideal) x0 x1 x2 x3 x4 x5 x6 x7)) (Read.val_main_v20 (F := Ideal) x1) (Read.val_main_v59 (F := Ideal) x0 x1 x2 x3 x4 x5 x6 x7)
          (Read.val_main_v79 (F := Ideal) x8) (Read.val_main_v81 (F := Ideal) x9) x10 := by
  funext i
  obtain ⟨p, n, rfl⟩ : ∃ (p : Fin 100000) (n : Fin 64), i = ix2 p n := ⟨i 0, i 1, eq_ix2 i⟩
  have el : ∀ k : Fin 128, Read.lidx_main_v80 (ix2 p n) k = ix2 p k := fun k => funext fun a => Fin.ext (by match a with | ⟨0, _⟩ => rfl | ⟨1, _⟩ => rfl)
  have er : ∀ k : Fin 128, Read.ridx_main_v80 (ix2 p n) k = ix2 k n := fun k => funext fun a => Fin.ext (by match a with | ⟨0, _⟩ => rfl | ⟨1, _⟩ => rfl)
  have el' : ∀ k : Fin 128, Read.lidx_main_v82 (ix2 p n) k = ix2 p k := fun k => funext fun a => Fin.ext (by match a with | ⟨0, _⟩ => rfl | ⟨1, _⟩ => rfl)
  have er' : ∀ k : Fin 128, Read.ridx_main_v82 (ix2 p n) k = ix2 k n := fun k => funext fun a => Fin.ext (by match a with | ⟨0, _⟩ => rfl | ⟨1, _⟩ => rfl)
  have eb : Read.idx_main_v84 (Read.idx_main_v85 (ix2 p n)) = ix1 n := funext fun a => Fin.ext (by match a with | ⟨0, _⟩ => rfl)
  rw [Cert.Net.layerDiv_apply, Read.val_main_v86_apply, Read.val_main_v83_apply,
    Read.val_main_v80_apply, Read.val_main_v82_apply, Read.val_main_v85_apply, Read.val_main_v84_apply, eb,
    Ideal.addf_def, Ideal.addf_def]
  simp only [el, er, el', er', mean2_apply]
  unfold Cert.Net.act
  exact (if_neg Bool.false_ne_true).symm

/-! ## The whole network -/

/-- The reference program's result is the three-layer network of its arguments: the edges landing on a node and the
    source of an edge read off the two index columns, the degree column, and the transposed weight matrices. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64x128, .f32⟩ : BufTy).Contents (Elt Ideal)) (x10 : (⟨S64, .f32⟩ : BufTy).Contents (Elt Ideal)) :
    Read.val_main_v86 (F := Ideal) x0 x1 x2 x3 x4 x5 x6 x7 x8 x9 x10
      = Cert.GNet.refNet (Cert.Lib.RowAggregate.landing (N := 100000) (Read.val_main_v12 (F := Ideal) x1)) (Cert.Lib.RowAggregate.srcRow (N := 100000) (by decide) (Read.val_main_v9 (F := Ideal) x1)) (Read.val_main_v20 (F := Ideal) x1) x0
          (Read.val_main_v23 (F := Ideal) x2) (Read.val_main_v25 (F := Ideal) x3) x4
          (Read.val_main_v51 (F := Ideal) x5) (Read.val_main_v53 (F := Ideal) x6) x7
          (Read.val_main_v79 (F := Ideal) x8) (Read.val_main_v81 (F := Ideal) x9) x10 := by
  rw [layer2_eq, layer1_eq, layer0_eq]
  unfold Cert.GNet.refNet
  with_reducible rfl

/-! ## The reference's run -/

/-- Every weakly fair execution of the reference program terminates with its result array holding the three-layer
    network of the arguments, and the arguments unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
      r.2.mem ((c.tc : Thread nD τ).loc main_v86)
          = Cert.GNet.refNet (Cert.Lib.RowAggregate.landing (N := 100000) (Read.val_main_v12 (F := Ideal) (m' ((c.tc : Thread nD τ).loc main_arg1))))
              (Cert.Lib.RowAggregate.srcRow (N := 100000) (by decide) (Read.val_main_v9 (F := Ideal) (m' ((c.tc : Thread nD τ).loc main_arg1))))
              (Read.val_main_v20 (F := Ideal) (m' ((c.tc : Thread nD τ).loc main_arg1))) (m' ((c.tc : Thread nD τ).loc main_arg0))
              (Read.val_main_v23 (F := Ideal) (m' ((c.tc : Thread nD τ).loc main_arg2))) (Read.val_main_v25 (F := Ideal) (m' ((c.tc : Thread nD τ).loc main_arg3))) (m' ((c.tc : Thread nD τ).loc main_arg4))
              (Read.val_main_v51 (F := Ideal) (m' ((c.tc : Thread nD τ).loc main_arg5))) (Read.val_main_v53 (F := Ideal) (m' ((c.tc : Thread nD τ).loc main_arg6))) (m' ((c.tc : Thread nD τ).loc main_arg7))
              (Read.val_main_v79 (F := Ideal) (m' ((c.tc : Thread nD τ).loc main_arg8))) (Read.val_main_v81 (F := Ideal) (m' ((c.tc : Thread nD τ).loc main_arg9))) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run _ _ _).mono (fun _ h c => ⟨by rw [(h c).1, Read.val_main_v86_eq, result_eq], (h c).2⟩)
    (Cert.ReferenceIdeal.Value.run (F := Ideal) m' ρ')

end Cert.ReferenceIdeal.RefValue

end
-- ==== Proof.KernelEntries.lean ====
/-
  THE HOST-SIDE PIECES OF THE KERNEL PROGRAM READ AT AN INDEX.

  Adding the gathered rows into the destinations, from the zero matrix, is the neighbour sum: entry (p, k) is
  0 + the sum, over the edges whose destination is p, of the entry (source, k) — a destination outside the node range
  is dropped, a source outside it is clamped. The reciprocal-degree column at p is 1 / max(deg p, 1); a bias row at
  (0, n) is the bias vector at n; a transposed weight matrix has the entries of the matrix.
-/
import proofs.«131813_j86199993631208_2_alg».proof.Proof.HostFold
import proofs.«131813_j86199993631208_2_alg».proof.Proof.LibFusedSageNet
import proofs.«131813_j86199993631208_2_alg».proof.Proof.LibRowAggregate
import proofs.«131813_j86199993631208_2_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.Host

open Idealize.ShloMosaic Idealize.ShloMosaic.ValueIdx
open Cert.KernelIdeal Cert.KernelIdeal.Gen
open Cert.Sage (Mat Vc)
open Cert.GNet (nbrSum nbrSum_apply)
open Cert.Lib.RowAggregate (landing srcRow scatterAdd_row_apply gather_row_apply')
open Cert.Lib.Finite (IsReal)

/-- The edges landing on node p. -/
def landOn (dv : IVec S1600000 32) (p : Fin 100000) : Finset (Fin 1600000) := landing (dstCol dv) p

/-- The node an edge reads. -/
def readRow (sv : IVec S1600000 32) (e : Fin 1600000) : Fin 100000 := srcRow (N := 100000) (by decide) (srcCol sv) e

theorem zero128 (i : S100000x128.Idx) :
    broadcastInDim S100000x128 ![] bcast_S_S100000x128 (constant (F := Ideal) S_ .f32 0x00000000#32) i = 0 :=
  Ideal.ofBits_zero_f32

theorem zero64 (i : S100000x64.Idx) :
    broadcastInDim S100000x64 ![] bcast_S_S100000x64 (constant (F := Ideal) S_ .f32 0x00000000#32) i = 0 :=
  Ideal.ofBits_zero_f32

/-- The aggregation of a 128-wide feature matrix is its neighbour sum. -/
theorem agg128_eq (sv dv : IVec S1600000 32) (h : FVec Ideal S100000x128 .f32) :
    agg128 sv dv h = nbrSum (landOn dv) (readRow sv) h := by
  funext i
  obtain ⟨p, k, rfl⟩ : ∃ (p : Fin 100000) (k : Fin 128), i = ix2 p k := ⟨i 0, i 1, eq_ix2 i⟩
  unfold agg128
  refine (scatterAdd_row_apply scatter_S100000x128_S1600000x1_S1600000x128_1_0_0_1
    scatter_S100000x128_S1600000x1_S1600000x128_1_0_0_1_wf rfl _ (dstCol dv) _ p k).trans ?_
  rw [nbrSum_apply, zero128]
  refine congrArg _ (Finset.sum_congr rfl fun e _ => ?_)
  exact gather_row_apply' (by decide) _ gather_S100000x128_S1600000x1_S1600000x128_1_0_n_n_0_1_1128_wf rfl h (srcCol sv) e k

/-- The aggregation of a 64-wide feature matrix is its neighbour sum. -/
theorem agg64_eq (sv dv : IVec S1600000 32) (h : FVec Ideal S100000x64 .f32) :
    agg64 sv dv h = nbrSum (landOn dv) (readRow sv) h := by
  funext i
  obtain ⟨p, k, rfl⟩ : ∃ (p : Fin 100000) (k : Fin 64), i = ix2 p k := ⟨i 0, i 1, eq_ix2 i⟩
  unfold agg64
  refine (scatterAdd_row_apply scatter_S100000x64_S1600000x1_S1600000x64_1_0_0_1
    scatter_S100000x64_S1600000x1_S1600000x64_1_0_0_1_wf rfl _ (dstCol dv) _ p k).trans ?_
  rw [nbrSum_apply, zero64]
  refine congrArg _ (Finset.sum_congr rfl fun e _ => ?_)
  exact gather_row_apply' (by decide) _ gather_S100000x64_S1600000x1_S1600000x64_1_0_n_n_0_1_164_wf rfl h (srcCol sv) e k

/-- The reciprocal-degree column at node p. -/
theorem invCol_apply (dv : IVec S1600000 32) (p : Fin 100000) :
    invCol dv (ix2 p (0 : Fin 1)) = Ideal.div 1 (max (degVec dv (ix1 p)) 1) := by
  unfold invCol
  rw [Cert.Column.shapeCast_a_a1_apply, hostDivf_apply, maximumf_apply, broadcastInDim_scalar_apply, constant_apply,
    Ideal.ofBits_one_f32]

/-- A 128-long bias row at (0, n) is the bias vector at n. -/
theorem row128_apply (a : FVec Ideal S128 .f32) (n : Fin 128) : row128 a (ix2 (0 : Fin 1) n) = a (ix1 n) :=
  shapeCast_a_1a_apply a _ 0 n

/-- A 64-long bias row at (0, n) is the bias vector at n. -/
theorem row64_apply (a : FVec Ideal S64 .f32) (n : Fin 64) : row64 a (ix2 (0 : Fin 1) n) = a (ix1 n) :=
  shapeCast_a_1a_apply a _ 0 n

/-- A bias row of real entries has real entries. -/
theorem row128_real (a : FVec Ideal S128 .f32) (ha : ∀ i, IsReal (a i)) (i) : IsReal (row128 a i) := ha _

/-- A transposed matrix of real entries has real entries. -/
theorem tr128_real (a : FVec Ideal S128x128 .f32) (ha : ∀ i, IsReal (a i)) (i) : IsReal (tr128 a i) := ha _

theorem tr64_real (a : FVec Ideal S64x128 .f32) (ha : ∀ i, IsReal (a i)) (i) : IsReal (tr64 a i) := ha _

end Cert.KernelIdeal.Host

end
-- ==== Proof.SamePieces.lean ====
/-
  THE TWO PROGRAMS COMPUTE THE SAME INDEX COLUMNS, DEGREES AND TRANSPOSED WEIGHTS.

  Both programs take the edges' sources and destinations out of the edge list by the same operations, count the
  in-degrees by the same addition of ones, and transpose the weight matrices the same way: as functions of the
  arguments these pieces are the same terms.
-/
import proofs.«131813_j86199993631208_2_alg».proof.Proof.HostFold
import proofs.«131813_j86199993631208_2_alg».proof.Proof.Gen.ReferenceIdeal.Read

set_option maxRecDepth 16384

noncomputable section

namespace Cert.SamePieces

open Idealize.ShloMosaic
open Cert.KernelIdeal.Host

theorem dst_eq (ei : IVec Cert.KernelIdeal.S2x1600000 32) :
    dstCol (dstVec ei) = Cert.ReferenceIdeal.Read.val_main_v12 (F := Ideal) ei := rfl

theorem src_eq (ei : IVec Cert.KernelIdeal.S2x1600000 32) :
    srcCol (srcVec ei) = Cert.ReferenceIdeal.Read.val_main_v9 (F := Ideal) ei := rfl

theorem deg_eq (ei : IVec Cert.KernelIdeal.S2x1600000 32) :
    degVec (dstVec ei) = Cert.ReferenceIdeal.Read.val_main_v17 (F := Ideal) ei := rfl

theorem wl0_eq (a : FVec Ideal Cert.KernelIdeal.S128x128 .f32) : tr128 a = Cert.ReferenceIdeal.Read.val_main_v23 (F := Ideal) a := rfl
theorem wr0_eq (a : FVec Ideal Cert.KernelIdeal.S128x128 .f32) : tr128 a = Cert.ReferenceIdeal.Read.val_main_v25 (F := Ideal) a := rfl
theorem wl1_eq (a : FVec Ideal Cert.KernelIdeal.S128x128 .f32) : tr128 a = Cert.ReferenceIdeal.Read.val_main_v51 (F := Ideal) a := rfl
theorem wr1_eq (a : FVec Ideal Cert.KernelIdeal.S128x128 .f32) : tr128 a = Cert.ReferenceIdeal.Read.val_main_v53 (F := Ideal) a := rfl
theorem wl2_eq (a : FVec Ideal Cert.KernelIdeal.S64x128 .f32) : tr64 a = Cert.ReferenceIdeal.Read.val_main_v79 (F := Ideal) a := rfl
theorem wr2_eq (a : FVec Ideal Cert.KernelIdeal.S64x128 .f32) : tr64 a = Cert.ReferenceIdeal.Read.val_main_v81 (F := Ideal) a := rfl

end Cert.SamePieces

end
-- ==== Proof.FiniteInputs.lean ====
/- Every float input is a real number.

   The precondition of the claim is the printed predicate `Cert.Pre_finite_inputs.fn`: for each of the ten float
   inputs `x` it computes `jnp.all(|x| < +∞)` and takes the conjunction of the ten answers. At the ideal instance an
   entry is an extended real, `|x|` is `max x (-x)`, and the pattern `0x7F800000` denotes `⊤`. So the predicate
   being true says `max (x i) (-(x i)) < ⊤` at every index of every float input, which excludes both `⊥` and `⊤`:
   every entry is the image of a real number. The integer input (the edge list) is not constrained. -/
import proofs.«131813_j86199993631208_2_alg».proof.Pre_finite_inputs
import proofs.«131813_j86199993631208_2_alg».proof.Proof.Gen.Pre_finite_inputs
import proofs.«131813_j86199993631208_2_alg».proof.Proof.LibFinite
import Idealize.ShloMosaic.Lib.ReduceAll
import Idealize.ShloMosaic.Lib.ValueIdx
import Idealize.ShloMosaic.PureOps.Ideal

namespace Cert.FiniteInputs

open Idealize.ShloMosaic Cert.Pre_finite_inputs Cert.Lib.Finite

/-- The shape of rank zero has exactly one index. -/
instance : Subsingleton S_.Idx := ⟨fun a b => funext fun d => d.elim0⟩

/-- An extended real whose absolute value `max x (-x)` is strictly below `⊤` is a real number:
    at `⊥` the absolute value is `-⊥ = ⊤`, at `⊤` it is `⊤` itself. -/
theorem isReal_of_abs_lt_top (x : EReal) (h : max x (-x) < ⊤) : IsReal x := by
  induction x with
  | bot => simp at h
  | coe r => exact ⟨r, rfl⟩
  | top => simp at h

/-- The pattern `0x7F800000` of the 32-bit format denotes `+∞`. -/
theorem ofBits_inf : Ideal.ofBits .f32 0x7F800000#32 = (⊤ : EReal) := by
  simp [Ideal.ofBits, Ideal.ieee]

/-- One element of one comparison, for any shape: where `|a| < +∞` (the constant broadcast from a scalar)
    answers true at the index `i`, the entry `a i` is a real number. -/
theorem isReal_of_cmp {S : Shape} (hb : S_.BroadcastsInDim S (![] : Fin 0 → Fin S.rank))
    (a : FVec Ideal S .f32) (i : S.Idx)
    (h : cmpf .olt (Host.absf a) (broadcastInDim S ![] hb (constant (F := Ideal) S_ .f32 0x7F800000#32)) i = 1#1) :
    IsReal (a i) := by
  have h' : Ideal.cmp .olt (max (a i) (-(a i))) (Ideal.ofBits .f32 0x7F800000#32) = 1#1 := h
  rw [ofBits_inf] at h'
  refine isReal_of_abs_lt_top _ ?_
  by_contra hn
  simp [Ideal.cmp, hn] at h'

/-- The whole of one `jnp.all(|a| < +∞)`: if the reduction by `and` over all axes answers true, every entry
    of `a` is a real number. -/
theorem isReal_of_all {S : Shape} {axes : List (Fin S.rank)}
    (hb : S_.BroadcastsInDim S (![] : Fin 0 → Fin S.rank)) (hr : S.ReducesTo axes S_) (hu : 0 < S_.numel)
    (a : FVec Ideal S .f32) (init : IVec S_ 1)
    (h : Host.reduce IntOp.andi
          (cmpf .olt (Host.absf a) (broadcastInDim S ![] hb (constant (F := Ideal) S_ .f32 0x7F800000#32)))
          init hr hu ValueIdx.ix0 = 1#1) (i : S.Idx) : IsReal (a i) :=
  isReal_of_cmp hb a i (Host.reduce_andi_all _ init hr hu ValueIdx.ix0 h i)

/-- The precondition, decoded: every entry of each of the ten float inputs is a real number. -/
theorem all_real (a0 : FVec Ideal S100000x128 .f32) (a1 : IVec S2x1600000 32) (a2 a3 : FVec Ideal S128x128 .f32)
    (a4 : FVec Ideal S128 .f32) (a5 a6 : FVec Ideal S128x128 .f32) (a7 : FVec Ideal S128 .f32)
    (a8 a9 : FVec Ideal S64x128 .f32) (a10 : FVec Ideal S64 .f32)
    (h : Cert.Pre_finite_inputs.fn (F := Ideal) a0 a1 a2 a3 a4 a5 a6 a7 a8 a9 a10 = (fun _ => 1#1)) :
    (∀ i, IsReal (a0 i)) ∧ (∀ i, IsReal (a2 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨e0, e2⟩, e3⟩, e4⟩, e5⟩, e6⟩, e7⟩, e8⟩, e9⟩, e10⟩ := e
  exact ⟨isReal_of_all _ _ _ a0 _ e0, isReal_of_all _ _ _ a2 _ e2, isReal_of_all _ _ _ a3 _ e3,
    isReal_of_all _ _ _ a4 _ e4, isReal_of_all _ _ _ a5 _ e5, isReal_of_all _ _ _ a6 _ e6,
    isReal_of_all _ _ _ a7 _ e7, isReal_of_all _ _ _ a8 _ e8, isReal_of_all _ _ _ a9 _ e9,
    isReal_of_all _ _ _ a10 _ e10⟩

end Cert.FiniteInputs
-- ==== Proof.Bridge.lean ====
/-
  THE KERNEL PROGRAM'S RESULT IS THE REFERENCE NETWORK OF THE ARGUMENTS.

  The kernel program's result is the network in the arrangement that multiplies by the reciprocal degrees and, in the
  last layer, projects before it aggregates (`fusedNet`); the reference's is the arrangement that divides by the degrees
  (`refNet`). The index columns, the degrees and the transposed weights are the same on both sides, the reciprocal
  column is 1 / max(deg, 1) against the reference's divisor max(deg, 1) (never zero), a bias row holds its bias vector,
  and every float argument is a real number by the precondition: the two arrangements agree.
-/
import proofs.«131813_j86199993631208_2_alg».proof.Proof.KernelValue
import proofs.«131813_j86199993631208_2_alg».proof.Proof.KernelEntries
import proofs.«131813_j86199993631208_2_alg».proof.Proof.SamePieces
import proofs.«131813_j86199993631208_2_alg».proof.Proof.FiniteInputs
import proofs.«131813_j86199993631208_2_alg».proof.Proof.RefValue

set_option maxRecDepth 16384
set_option maxHeartbeats 1000000

noncomputable section

namespace Cert.Bridge

open Idealize.ShloMosaic Idealize.ShloMosaic.TcCoe Idealize.ShloMosaic.ValueIdx Idealize.SL.Sem
open Cert.KernelIdeal Cert.KernelIdeal.Gen Cert.KernelIdeal.Host Cert.KernelIdeal.Whole
open Cert.GNet (fusedNet refNet fusedNet_eq_refNet)
open Cert.Lib.RowAggregate (landing srcRow)
open Cert.Lib.Finite (IsReal)

variable (m : (ℓ : Loc nD τ sig) → Buf (Elt Ideal) ℓ) (c : Dev nD)

/-- The kernel program's result is the fused arrangement of the network, with the aggregations read as neighbour sums. -/
theorem outv_eq_fused :
    outv m c = fusedNet (landOn (dv m c)) (readRow (sv m c)) (Whole.inv m c) (m ((c : Thread nD τ).loc main_arg0) : S100000x128.Idx → EReal) (tr128 (m ((c : Thread nD τ).loc main_arg2) : S128x128.Idx → EReal)) (tr128 (m ((c : Thread nD τ).loc main_arg3) : S128x128.Idx → EReal)) (row128 (m ((c : Thread nD τ).loc main_arg4) : S128.Idx → EReal))
      (tr128 (m ((c : Thread nD τ).loc main_arg5) : S128x128.Idx → EReal)) (tr128 (m ((c : Thread nD τ).loc main_arg6) : S128x128.Idx → EReal)) (row128 (m ((c : Thread nD τ).loc main_arg7) : S128.Idx → EReal)) (tr64 (m ((c : Thread nD τ).loc main_arg8) : S64x128.Idx → EReal)) (tr64 (m ((c : Thread nD τ).loc main_arg9) : S64x128.Idx → EReal)) (row64 (m ((c : Thread nD τ).loc main_arg10) : S64.Idx → EReal)) := by
  unfold outv yv h1 h0 fusedNet
  simp only [agg128_eq, agg64_eq]

/-- The reciprocal column is one over the reference's degree column. -/
theorem inv_apply (p : Fin 100000) :
    Whole.inv m c (ix2 p (0 : Fin 1)) = Ideal.div 1 (Cert.ReferenceIdeal.Read.val_main_v20 (F := Ideal) (m ((c : Thread nD τ).loc main_arg1) : IVec S2x1600000 32) (ix2 p (0 : Fin 1))) := by
  unfold Whole.inv dv
  rw [invCol_apply, Cert.ReferenceIdeal.RefValue.dcol_apply, Cert.SamePieces.deg_eq]

/-- Under the precondition the kernel program's result is the reference network of the arguments. -/
theorem outv_eq_ref
    (hpre : Cert.Pre_finite_inputs.fn (F := Ideal) (m ((c : Thread nD τ).loc main_arg0) : S100000x128.Idx → EReal) (m ((c : Thread nD τ).loc main_arg1) : IVec S2x1600000 32) (m ((c : Thread nD τ).loc main_arg2) : S128x128.Idx → EReal) (m ((c : Thread nD τ).loc main_arg3) : S128x128.Idx → EReal) (m ((c : Thread nD τ).loc main_arg4) : S128.Idx → EReal) (m ((c : Thread nD τ).loc main_arg5) : S128x128.Idx → EReal) (m ((c : Thread nD τ).loc main_arg6) : S128x128.Idx → EReal) (m ((c : Thread nD τ).loc main_arg7) : S128.Idx → EReal) (m ((c : Thread nD τ).loc main_arg8) : S64x128.Idx → EReal) (m ((c : Thread nD τ).loc main_arg9) : S64x128.Idx → EReal) (m ((c : Thread nD τ).loc main_arg10) : S64.Idx → EReal) = (fun _ => 1#1)) :
    outv m c = refNet (landing (Cert.ReferenceIdeal.Read.val_main_v12 (F := Ideal) (m ((c : Thread nD τ).loc main_arg1) : IVec S2x1600000 32)))
      (srcRow (N := 100000) (by decide) (Cert.ReferenceIdeal.Read.val_main_v9 (F := Ideal) (m ((c : Thread nD τ).loc main_arg1) : IVec S2x1600000 32)))
      (Cert.ReferenceIdeal.Read.val_main_v20 (F := Ideal) (m ((c : Thread nD τ).loc main_arg1) : IVec S2x1600000 32)) (m ((c : Thread nD τ).loc main_arg0) : S100000x128.Idx → EReal)
      (Cert.ReferenceIdeal.Read.val_main_v23 (F := Ideal) (m ((c : Thread nD τ).loc main_arg2) : S128x128.Idx → EReal)) (Cert.ReferenceIdeal.Read.val_main_v25 (F := Ideal) (m ((c : Thread nD τ).loc main_arg3) : S128x128.Idx → EReal)) (m ((c : Thread nD τ).loc main_arg4) : S128.Idx → EReal)
      (Cert.ReferenceIdeal.Read.val_main_v51 (F := Ideal) (m ((c : Thread nD τ).loc main_arg5) : S128x128.Idx → EReal)) (Cert.ReferenceIdeal.Read.val_main_v53 (F := Ideal) (m ((c : Thread nD τ).loc main_arg6) : S128x128.Idx → EReal)) (m ((c : Thread nD τ).loc main_arg7) : S128.Idx → EReal)
      (Cert.ReferenceIdeal.Read.val_main_v79 (F := Ideal) (m ((c : Thread nD τ).loc main_arg8) : S64x128.Idx → EReal)) (Cert.ReferenceIdeal.Read.val_main_v81 (F := Ideal) (m ((c : Thread nD τ).loc main_arg9) : S64x128.Idx → EReal)) (m ((c : Thread nD τ).loc main_arg10) : S64.Idx → EReal) := by
  obtain ⟨r0, r2, r3, r4, r5, r6, r7, r8, r9, r10⟩ := Cert.FiniteInputs.all_real _ _ _ _ _ _ _ _ _ _ _ hpre
  rw [outv_eq_fused]
  rw [fusedNet_eq_refNet (landOn (dv m c)) (readRow (sv m c)) (Whole.inv m c) (Cert.ReferenceIdeal.Read.val_main_v20 (F := Ideal) (m ((c : Thread nD τ).loc main_arg1) : IVec S2x1600000 32)) (m ((c : Thread nD τ).loc main_arg0) : S100000x128.Idx → EReal)
    (tr128 (m ((c : Thread nD τ).loc main_arg2) : S128x128.Idx → EReal)) (tr128 (m ((c : Thread nD τ).loc main_arg3) : S128x128.Idx → EReal)) (row128 (m ((c : Thread nD τ).loc main_arg4) : S128.Idx → EReal)) (m ((c : Thread nD τ).loc main_arg4) : S128.Idx → EReal) (tr128 (m ((c : Thread nD τ).loc main_arg5) : S128x128.Idx → EReal)) (tr128 (m ((c : Thread nD τ).loc main_arg6) : S128x128.Idx → EReal)) (row128 (m ((c : Thread nD τ).loc main_arg7) : S128.Idx → EReal)) (m ((c : Thread nD τ).loc main_arg7) : S128.Idx → EReal)
    (tr64 (m ((c : Thread nD τ).loc main_arg8) : S64x128.Idx → EReal)) (tr64 (m ((c : Thread nD τ).loc main_arg9) : S64x128.Idx → EReal)) (row64 (m ((c : Thread nD τ).loc main_arg10) : S64.Idx → EReal)) (m ((c : Thread nD τ).loc main_arg10) : S64.Idx → EReal)
    (inv_apply m c) (fun p => Cert.ReferenceIdeal.RefValue.dcol_ne_zero _ p)
    (fun n => row128_apply _ n) (fun n => row128_apply _ n) (fun n => row64_apply _ n)
    r0 (tr128_real _ r2) (tr128_real _ r3) (row128_real _ r4) (tr128_real _ r5) (tr128_real _ r6) (row128_real _ r7) (tr64_real _ r8)]
  have eL : landOn (dv m c) = landing (Cert.ReferenceIdeal.Read.val_main_v12 (F := Ideal) (m ((c : Thread nD τ).loc main_arg1) : IVec S2x1600000 32)) := by
    funext p; unfold landOn dv; rw [Cert.SamePieces.dst_eq]
  have eS : readRow (sv m c) = srcRow (N := 100000) (by decide) (Cert.ReferenceIdeal.Read.val_main_v9 (F := Ideal) (m ((c : Thread nD τ).loc main_arg1) : IVec S2x1600000 32)) := by
    funext e; unfold readRow sv; rw [Cert.SamePieces.src_eq]
  rw [eL, eS, Cert.SamePieces.wl0_eq (m ((c : Thread nD τ).loc main_arg2) : S128x128.Idx → EReal), Cert.SamePieces.wr0_eq (m ((c : Thread nD τ).loc main_arg3) : S128x128.Idx → EReal), Cert.SamePieces.wl1_eq (m ((c : Thread nD τ).loc main_arg5) : S128x128.Idx → EReal),
    Cert.SamePieces.wr1_eq (m ((c : Thread nD τ).loc main_arg6) : S128x128.Idx → EReal), Cert.SamePieces.wl2_eq (m ((c : Thread nD τ).loc main_arg8) : S64x128.Idx → EReal), Cert.SamePieces.wr2_eq (m ((c : Thread nD τ).loc main_arg9) : S64x128.Idx → EReal)]

end Cert.Bridge

end
-- ==== Proof.lean ====
/-
  A three-layer mean-aggregation graph network (100000 nodes, 1600000 edges) computed by three row-blocked kernels
  among host gathers and scatter-adds, against the plain reference.

  Per layer the reference forms the neighbour sums agg(p,k) = sum over the edges landing on p of x(source, k), the
  degrees deg(p), and  out(p,n) = sum_k (agg(p,k) / max(deg p, 1)) wl(k,n) + sum_k x(p,k) wr(k,n) + b(n),  followed by
  max(., 0) after the first two layers. The kernel program computes the degrees once and multiplies by the reciprocal
  column 1 / max(deg, 1); its first two regions compute the layers from the aggregated features block of rows by
  block of rows; its second region also emits y = h1 . wl2, and the last region adds the aggregated y, scaled, to
  h1 . wr2 + b2: the projection is taken BEFORE the aggregation.

  At the exact values (the extended reals) the narrowing of the matrix products' operands is the identity, a
  product with a reciprocal is the quotient whenever the divisor is not zero (and max(deg, 1) never is), and summing
  rows along edges commutes with multiplying by a weight matrix where the entries are real numbers. The float
  arguments are real by the precondition and every layer keeps real entries real, so the last step applies.

  The three frames are the generated ones (the reference's is its generated run with the result dropped); nothing was
  rewritten when the kernel program was idealized, so there is nothing to preserve; the value claim reads the
  kernel program's result off its run (KernelRun, KernelValue), the reference's off its run (RefValue), and joins
  them (Bridge).
-/
import proofs.«131813_j86199993631208_2_alg».proof.Defs
import proofs.«131813_j86199993631208_2_alg».proof.Proof.Gen.Kernel
import proofs.«131813_j86199993631208_2_alg».proof.Proof.Gen.Kernel.Skeleton
import proofs.«131813_j86199993631208_2_alg».proof.Proof.Gen.Kernel.Launch
import proofs.«131813_j86199993631208_2_alg».proof.Proof.Gen.Kernel.Points
import proofs.«131813_j86199993631208_2_alg».proof.Proof.Gen.Kernel.Frame
import proofs.«131813_j86199993631208_2_alg».proof.Proof.Gen.KernelIdeal
import proofs.«131813_j86199993631208_2_alg».proof.Proof.Gen.KernelIdeal.Skeleton
import proofs.«131813_j86199993631208_2_alg».proof.Proof.Gen.KernelIdeal.Launch
import proofs.«131813_j86199993631208_2_alg».proof.Proof.Gen.KernelIdeal.Points
import proofs.«131813_j86199993631208_2_alg».proof.Proof.Gen.KernelIdeal.Frame
import proofs.«131813_j86199993631208_2_alg».proof.Proof.Gen.ReferenceIdeal
import proofs.«131813_j86199993631208_2_alg».proof.Proof.Gen.ReferenceIdeal.Run
import proofs.«131813_j86199993631208_2_alg».proof.Proof.Gen.Pre_finite_inputs
import proofs.«131813_j86199993631208_2_alg».proof.Proof.KernelRun
import proofs.«131813_j86199993631208_2_alg».proof.Proof.KernelValue
import proofs.«131813_j86199993631208_2_alg».proof.Proof.RefValue
import proofs.«131813_j86199993631208_2_alg».proof.Proof.Bridge
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the reference network of the arguments in their result buffers. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Whole.outv m c, ?_, ?_⟩
  · exact (θ_run Cert.KernelIdeal.defs _ _).mono
      (fun r h c => ⟨(h c).1.trans (Cert.KernelIdeal.Whole.W6_v54 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.RefValue.ref_run m' ρ')
    obtain ⟨e0, e1, e2, e3, e4, e5, e6, e7, e8, e9, e10⟩ := hagree c
    rw [e0, e1, e2, e3, e4, e5, e6, e7, e8, e9, e10]
    exact (Cert.Bridge.outv_eq_ref m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
